-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v25_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v25_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512x1 : Shape := ⟨2, ![512, 1]⟩
abbrev S1x2048 : Shape := ⟨2, ![1, 2048]⟩
abbrev S512 : Shape := ⟨1, ![512]⟩

abbrev nBuf : Space → Nat
  | .hbm => 44
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S4096x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1x1024, .f32⟩
  | .hbm, ⟨23, _⟩ => ⟨S4096x1024, .bf16⟩
  | .hbm, ⟨24, _⟩ => ⟨S1024x1024, .bf16⟩
  | .hbm, ⟨25, _⟩ => ⟨S1x1024, .f32⟩
  | .hbm, ⟨26, _⟩ => ⟨S4096x1024, .bf16⟩
  | .hbm, ⟨27, _⟩ => ⟨S1024x1024, .bf16⟩
  | .hbm, ⟨28, _⟩ => ⟨S1x1024, .f32⟩
  | .hbm, ⟨29, _⟩ => ⟨S4096x1024, .bf16⟩
  | .hbm, ⟨30, _⟩ => ⟨S2x2048x16x64, .bf16⟩
  | .hbm, ⟨31, _⟩ => ⟨S2x16x2048x64, .bf16⟩
  | .hbm, ⟨32, _⟩ => ⟨S2x2048x16x64, .bf16⟩
  | .hbm, ⟨33, _⟩ => ⟨S2x16x2048x64, .bf16⟩
  | .hbm, ⟨34, _⟩ => ⟨S2x2048x16x64, .bf16⟩
  | .hbm, ⟨35, _⟩ => ⟨S2x16x2048x64, .bf16⟩
  | .hbm, ⟨36, _⟩ => ⟨S2x16x2048x2048, .f32⟩
  | .hbm, ⟨37, _⟩ => ⟨S2x16x2048x64, .bf16⟩
  | .hbm, ⟨38, _⟩ => ⟨S2x2048x16x64, .bf16⟩
  | .hbm, ⟨39, _⟩ => ⟨S4096x1024, .bf16⟩
  | .hbm, ⟨40, _⟩ => ⟨S1024x1024, .bf16⟩
  | .hbm, ⟨41, _⟩ => ⟨S1x1024, .f32⟩
  | .hbm, ⟨42, _⟩ => ⟨S4096x1024, .f32⟩
  | .hbm, ⟨43, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1x512x64, .bf16⟩
  | .local _ .vmem, ⟨19, _⟩ => ⟨S1x1x512x64, .bf16⟩
  | .local _ .vmem, ⟨20, _⟩ => ⟨S1x1x2048x64, .bf16⟩
  | .local _ .vmem, ⟨21, _⟩ => ⟨S1x1x2048x64, .bf16⟩
  | .local _ .vmem, ⟨22, _⟩ => ⟨S1x1x2048x64, .bf16⟩
  | .local _ .vmem, ⟨23, _⟩ => ⟨S1x1x2048x64, .bf16⟩
  | .local _ .vmem, ⟨24, _⟩ => ⟨S1x1x512x2048, .f32⟩
  | .local _ .vmem, ⟨25, _⟩ => ⟨S1x1x512x2048, .f32⟩
  | .local _ .vmem, ⟨26, _⟩ => ⟨S1x1x512x64, .bf16⟩
  | .local _ .vmem, ⟨27, _⟩ => ⟨S1x1x512x64, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 16, 4], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage3_0 : Fin 2 → Memref sig .tc .vmem S1x1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x1x512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x1x512x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  iota_S512x1_d0_w32 : S512x1.Iotas .tc 32 [0]
  iota_S1x2048_d1_w32 : S1x2048.Iotas .tc 32 [1]
  broadcasts_S1x2048_S512x2048 : S1x2048.Broadcasts S512x2048
  broadcasts_S512x1_S512x2048 : S512x1.Broadcasts S512x2048
  reduces_S512x2048_S512 : S512x2048.Reduces [1] S512
  shapeCasts_S512_S512x1 : S512.ShapeCasts S512x1
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x512x64.size a ≤ S2x16x2048x64.size a
  hwx3_0 : ∀ i : grid3.Coords, EltTy.bits .bf16 = 32 ∨ (Rect.block (s := S2x16x2048x64) S1x1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S2x16x2048x64.size a
  hwx3_1 : ∀ i : grid3.Coords, EltTy.bits .bf16 = 32 ∨ (Rect.block (s := S2x16x2048x64) S1x1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S2x16x2048x64.size a
  hwx3_2 : ∀ i : grid3.Coords, EltTy.bits .bf16 = 32 ∨ (Rect.block (s := S2x16x2048x64) S1x1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x512x2048.size a ≤ S2x16x2048x2048.size a
  hwx3_3 : ∀ i : grid3.Coords, EltTy.bits .f32 = 32 ∨ (Rect.block (s := S2x16x2048x2048) S1x1x512x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x512x64.size a ≤ S2x16x2048x64.size a
  hwx3_4 : ∀ i : grid3.Coords, EltTy.bits .bf16 = 32 ∨ (Rect.block (s := S2x16x2048x64) S1x1x512x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .bf16 = 32 ∨ (Rect.block (s := S4096x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S1x1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v25_0) S1x1x512x2048.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v25_1) S1x1x512x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v27) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v29) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v30) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 72
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S2x2048x1024, .f32⟩
  | .hbm, ⟨14, _⟩ => ⟨S1x1x1024, .f32⟩
  | .hbm, ⟨15, _⟩ => ⟨S2x2048x1024, .f32⟩
  | .hbm, ⟨16, _⟩ => ⟨S2x2048x1024, .f32⟩
  | .hbm, ⟨17, _⟩ => ⟨S2x2048x16x64, .f32⟩
  | .hbm, ⟨18, _⟩ => ⟨S2x16x2048x64, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x16x64, .f32⟩
  | .hbm, ⟨24, _⟩ => ⟨S2x16x2048x64, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x2048x16x64, .f32⟩
  | .hbm, ⟨30, _⟩ => ⟨S2x16x2048x64, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S_, .i1⟩
  | .hbm, ⟨35, _⟩ => ⟨S2048x2048, .i1⟩
  | .hbm, ⟨36, _⟩ => ⟨S2048x2048, .i32⟩
  | .hbm, ⟨37, _⟩ => ⟨S_, .i32⟩
  | .hbm, ⟨38, _⟩ => ⟨S2048x2048, .i32⟩
  | .hbm, ⟨39, _⟩ => ⟨S2048x2048, .i32⟩
  | .hbm, ⟨40, _⟩ => ⟨S2048x2048, .i32⟩
  | .hbm, ⟨41, _⟩ => ⟨S2048x2048, .i1⟩
  | .hbm, ⟨42, _⟩ => ⟨S_, .i1⟩
  | .hbm, ⟨43, _⟩ => ⟨S2048x2048, .i1⟩
  | .hbm, ⟨44, _⟩ => ⟨S2048x2048, .i1⟩
  | .hbm, ⟨45, _⟩ => ⟨S1x1x2048x2048, .i1⟩
  | .hbm, ⟨46, _⟩ => ⟨S_, .f32⟩
  | .hbm, ⟨47, _⟩ => ⟨S_, .f32⟩
  | .hbm, ⟨48, _⟩ => ⟨S2x16x2048x2048, .i1⟩
  | .hbm, ⟨49, _⟩ => ⟨S2x16x2048x2048, .f32⟩
  | .hbm, ⟨50, _⟩ => ⟨S2x16x2048x2048, .f32⟩
  | .hbm, ⟨51, _⟩ => ⟨S_, .f32⟩
  | .hbm, ⟨52, _⟩ => ⟨S2x16x2048, .f32⟩
  | .hbm, ⟨53, _⟩ => ⟨S_, .f32⟩
  | .hbm, ⟨54, _⟩ => ⟨S2x16x2048, .f32⟩
  | .hbm, ⟨55, _⟩ => ⟨S2x16x2048, .f32⟩
  | .hbm, ⟨56, _⟩ => ⟨S2x16x2048x1, .f32⟩
  | .hbm, ⟨57, _⟩ => ⟨S2x16x2048x2048, .f32⟩
  | .hbm, ⟨58, _⟩ => ⟨S2x16x2048x2048, .f32⟩
  | .hbm, ⟨59, _⟩ => ⟨S2x16x2048x2048, .f32⟩
  | .hbm, ⟨60, _⟩ => ⟨S_, .f32⟩
  | .hbm, ⟨61, _⟩ => ⟨S2x16x2048, .f32⟩
  | .hbm, ⟨62, _⟩ => ⟨S2x16x2048x1, .f32⟩
  | .hbm, ⟨63, _⟩ => ⟨S2x16x2048x2048, .f32⟩
  | .hbm, ⟨64, _⟩ => ⟨S2x16x2048x2048, .f32⟩
  | .hbm, ⟨65, _⟩ => ⟨S2x16x2048x64, .f32⟩
  | .hbm, ⟨66, _⟩ => ⟨S2x2048x16x64, .f32⟩
  | .hbm, ⟨67, _⟩ => ⟨S2x2048x1024, .f32⟩
  | .hbm, ⟨68, _⟩ => ⟨S2x2048x1024, .f32⟩
  | .hbm, ⟨69, _⟩ => ⟨S1x1x1024, .f32⟩
  | .hbm, ⟨70, _⟩ => ⟨S2x2048x1024, .f32⟩
  | .hbm, ⟨71, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_0 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_cst_1 : Ref sig .tc := ⟨.hbm, 51, rfl⟩
abbrev main_v26 : Ref sig .tc := ⟨.hbm, 52, rfl⟩
abbrev main_cst_2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelIdealRun.lean ====
/-
  The idealized kernel's run, with every buffer named.  @main is eleven segments — six stretches of host operations
  and five pipelined kernel launches — and the buffer contents at each segment boundary are a fold from the launch
  memory: a stretch applies its operations, a launch replaces its arrays by what its write-backs leave.  Every weakly
  fair execution terminates without a fault, and in the final memory every buffer that is not a staging buffer holds
  the last boundary's contents.  Any property of final memories that follows from that is therefore a
  postcondition of the run; the value claim takes the two result arrays and the arguments from it.
-/
import proofs.«147173_j49108656063270_2_alg».proof.Proof.KernelIdealFrame

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run at any postcondition `Q` of final memories that holds as soon as every unscoped buffer of every core is at
    the last boundary's contents `W11`. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W11 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := hQ)

end Cert.KernelIdeal.Run

end
-- ==== Proof.LinSpec.lean ====
/-
  A linear layer as one function of whole arrays: row `p` of the input times the (already transposed) weight, plus
  the bias row, `y[p, e] = (∑ d, X[p, d] · Wt[d, e]) + B[0, e]`, over the extended reals.
-/
import proofs.«147173_j49108656063270_2_alg».proof.KernelIdeal
import Idealize.ShloMosaic.Lib.ValueIdx

noncomputable section

namespace Cert.LinSpec

open Idealize.ShloMosaic Idealize.ShloMosaic.ValueIdx

/-- The layer's result array, index by index. -/
def lin (X : Cert.KernelIdeal.S4096x1024.Idx → EReal) (Wt : Cert.KernelIdeal.S1024x1024.Idx → EReal)
    (B : Cert.KernelIdeal.S1x1024.Idx → EReal) : Cert.KernelIdeal.S4096x1024.Idx → EReal :=
  fun j => (∑ d : Fin 1024, X (ix2 (j 0) d) * Wt (ix2 d (j 1))) + B (ix2 0 (j 1))

/-- At an index given by its coordinates. -/
theorem lin_apply (X : Cert.KernelIdeal.S4096x1024.Idx → EReal) (Wt : Cert.KernelIdeal.S1024x1024.Idx → EReal)
    (B : Cert.KernelIdeal.S1x1024.Idx → EReal) (p : Fin 4096) (e : Fin 1024) :
    lin X Wt B (ix2 p e) = (∑ d : Fin 1024, X (ix2 p d) * Wt (ix2 d e)) + B (ix2 0 e) := rfl

end Cert.LinSpec

end
-- ==== Proof.LinearTile.lean ====
/-
  One tile of a linear layer of the kernel read at an index, and the reference's projections, head split and head
  merge read at an index — all at the ideal values (a float an extended real, every operation exact), stated over
  variables so that the certificate's proof can rewrite with them.
-/
import proofs.«147173_j49108656063270_2_alg».proof.Proof.Gen.KernelIdeal.Skeleton
import proofs.«147173_j49108656063270_2_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.LinearTile

open Idealize.ShloMosaic Idealize.SL.Sem Idealize.ShloMosaic.ValueIdx
open scoped BigOperators

/-! ## The kernel's side: one tile of a linear layer

Each of the four linear layers computes, on a tile of 512 rows, the product of a `512 × 1024` block of activations
with the `1024 × 1024` weights (already laid out contraction-axis first), adds the bias row to every row, and (in the
first three layers) narrows the result, which on the extended reals changes nothing. Read at the entry `(r, e)` this is
`∑ d, a (r, d) · w (d, e) + bias (0, e)`. -/

section Kernel
open Cert.KernelIdeal Cert.KernelIdeal.Gen

/-- Row coordinate of the left operand's index: the output row. -/
theorem lhs_0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- Column coordinate of the left operand's index: the contraction position. -/
theorem lhs_1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
/-- Row coordinate of the right operand's index: the contraction position. -/
theorem rhs_0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
/-- Column coordinate of the right operand's index: the output column. -/
theorem rhs_1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

theorem matmul_tile (a : FVec Ideal S512x1024 .bf16) (b : FVec Ideal S1024x1024 .bf16) (r : Fin 512) (e : Fin 1024) :
    matmul dot_S512x1024_S1024x1024_S512x1024_1_0_0_1_n_n none a b (constant S512x1024 .f32 0x00000000#32) (ix2 r e)
      = ∑ d : Fin 1024, a (ix2 r d) * b (ix2 d e) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k :=
    funext fun c => Fin.ext (by
      match c with
      | ⟨0, _⟩ => exact lhs_0 _ _
      | ⟨1, _⟩ => exact (lhs_1 _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e :=
    funext fun c => Fin.ext (by
      match c with
      | ⟨0, _⟩ => exact (rhs_0 _ _).trans hk
      | ⟨1, _⟩ => exact rhs_1 _ _)
  rw [el, er]

/-- The bias row broadcast down the tile's rows, read at an index: the bias at that column. -/
theorem bias_tile (c : FVec Ideal S1x1024 .f32) (r : Fin 512) (e : Fin 1024) :
    broadcastTo S512x1024 c broadcasts_S1x1024_S512x1024 (ix2 r e) = c (ix2 0 e) :=
  broadcastTo_apply c broadcasts_S1x1024_S512x1024 (ix2 r e) (ix2 0 e) (fun a => match a with
    | ⟨0, _⟩ => by show (0 : Nat) = if (1 : Nat) = 1 then 0 else _; rw [if_pos rfl]
    | ⟨1, _⟩ => by show e.val = if (1024 : Nat) = 1 then 0 else e.val; rw [if_neg (by decide)])

/-- One tile of linear layer 0, read at an index: the row of the activations against the column of the
    weights, plus the bias at that column. -/
theorem k0_tile (v0 : Vec Ideal S512x1024 .bf16) (v2 : Vec Ideal S1024x1024 .bf16) (v5 : Vec Ideal S1x1024 .f32)
    (r : Fin 512) (e : Fin 1024) :
    k0_pay1 (F := Ideal) v0 v2 v5 (ix2 r e) = (∑ d : Fin 1024, v0 (ix2 r d) * v2 (ix2 d e)) + v5 (ix2 0 e) := by
  unfold k0_pay1
  rw [shapeCast_self, shapeCast_self, shapeCast_self, truncf_apply, addf_apply, matmul_tile, bias_tile]

/-- One tile of linear layer 1, read at an index: the row of the activations against the column of the
    weights, plus the bias at that column. -/
theorem k1_tile (v0 : Vec Ideal S512x1024 .bf16) (v2 : Vec Ideal S1024x1024 .bf16) (v5 : Vec Ideal S1x1024 .f32)
    (r : Fin 512) (e : Fin 1024) :
    k1_pay1 (F := Ideal) v0 v2 v5 (ix2 r e) = (∑ d : Fin 1024, v0 (ix2 r d) * v2 (ix2 d e)) + v5 (ix2 0 e) := by
  unfold k1_pay1
  rw [shapeCast_self, shapeCast_self, shapeCast_self, truncf_apply, addf_apply, matmul_tile, bias_tile]

/-- One tile of linear layer 2, read at an index: the row of the activations against the column of the
    weights, plus the bias at that column. -/
theorem k2_tile (v0 : Vec Ideal S512x1024 .bf16) (v2 : Vec Ideal S1024x1024 .bf16) (v5 : Vec Ideal S1x1024 .f32)
    (r : Fin 512) (e : Fin 1024) :
    k2_pay1 (F := Ideal) v0 v2 v5 (ix2 r e) = (∑ d : Fin 1024, v0 (ix2 r d) * v2 (ix2 d e)) + v5 (ix2 0 e) := by
  unfold k2_pay1
  rw [shapeCast_self, shapeCast_self, shapeCast_self, truncf_apply, addf_apply, matmul_tile, bias_tile]

/-- One tile of linear layer 4, read at an index: the row of the activations against the column of the
    weights, plus the bias at that column. -/
theorem k4_tile (v0 : Vec Ideal S512x1024 .bf16) (v2 : Vec Ideal S1024x1024 .bf16) (v5 : Vec Ideal S1x1024 .f32)
    (r : Fin 512) (e : Fin 1024) :
    k4_pay1 (F := Ideal) v0 v2 v5 (ix2 r e) = (∑ d : Fin 1024, v0 (ix2 r d) * v2 (ix2 d e)) + v5 (ix2 0 e) := by
  unfold k4_pay1
  rw [shapeCast_self, shapeCast_self, shapeCast_self, addf_apply, matmul_tile, bias_tile]

end Kernel

/-! ## The reference's side: the projections and the head split, read at an index

The reference projects with `x · Wᵀ + b` (the weights are contracted over their second axis), splits the model axis
`1024 = 16 · 64` into heads by a reshape and a transpose, and merges the heads back the same way before the output
projection. -/

section Reference
open Cert.ReferenceIdeal Cert.ReferenceIdeal.Gen Cert.ReferenceIdeal.Read

/-- The query projection at `(bt, s, e)`: the row of the input against row `e` of the weights, plus the bias. -/
theorem ref_proj_q (x0 : (⟨S2x2048x1024, .f32⟩ : BufTy).Contents (Elt Ideal)) (x3 : (⟨S1024x1024, .f32⟩ : BufTy).Contents (Elt Ideal)) (x4 : (⟨S1024, .f32⟩ : BufTy).Contents (Elt Ideal)) (bt : Fin 2) (s : Fin 2048) (e : Fin 1024) :
    val_main_v4 (F := Ideal) x0 x3 x4 (ix3 bt s e)
      = (∑ d : Fin 1024, x0 (ix3 bt s d) * x3 (ix2 e d)) + x4 (ix1 e) := by
  have hl : ∀ k : Fin 1024, lidx_main_v1 (ix3 bt s e) k = ix3 bt s k := fun k => funext fun a => match a with
    | ⟨0, _⟩ => rfl
    | ⟨1, _⟩ => rfl
    | ⟨2, _⟩ => rfl
  have hr : ∀ k : Fin 1024, ridx_main_v1 (ix3 bt s e) k = ix2 e k := fun k => funext fun a => match a with
    | ⟨0, _⟩ => rfl
    | ⟨1, _⟩ => rfl
  have hb : idx_main_v2 (idx_main_v3 (ix3 bt s e)) = ix1 e := funext fun a => match a with
    | ⟨0, _⟩ => rfl
  rw [val_main_v4_apply, val_main_v1_apply, val_main_v3_apply, val_main_v2_apply, hb]
  simp only [hl, hr]
  rfl

/-- The key projection at `(bt, s, e)`. -/
theorem ref_proj_k (x1 : (⟨S2x2048x1024, .f32⟩ : BufTy).Contents (Elt Ideal)) (x5 : (⟨S1024x1024, .f32⟩ : BufTy).Contents (Elt Ideal)) (x6 : (⟨S1024, .f32⟩ : BufTy).Contents (Elt Ideal)) (bt : Fin 2) (s : Fin 2048) (e : Fin 1024) :
    val_main_v10 (F := Ideal) x1 x5 x6 (ix3 bt s e)
      = (∑ d : Fin 1024, x1 (ix3 bt s d) * x5 (ix2 e d)) + x6 (ix1 e) := by
  have hl : ∀ k : Fin 1024, lidx_main_v7 (ix3 bt s e) k = ix3 bt s k := fun k => funext fun a => match a with
    | ⟨0, _⟩ => rfl
    | ⟨1, _⟩ => rfl
    | ⟨2, _⟩ => rfl
  have hr : ∀ k : Fin 1024, ridx_main_v7 (ix3 bt s e) k = ix2 e k := fun k => funext fun a => match a with
    | ⟨0, _⟩ => rfl
    | ⟨1, _⟩ => rfl
  have hb : idx_main_v8 (idx_main_v9 (ix3 bt s e)) = ix1 e := funext fun a => match a with
    | ⟨0, _⟩ => rfl
  rw [val_main_v10_apply, val_main_v7_apply, val_main_v9_apply, val_main_v8_apply, hb]
  simp only [hl, hr]
  rfl

/-- The value projection at `(bt, s, e)`. -/
theorem ref_proj_v (x2 : (⟨S2x2048x1024, .f32⟩ : BufTy).Contents (Elt Ideal)) (x7 : (⟨S1024x1024, .f32⟩ : BufTy).Contents (Elt Ideal)) (x8 : (⟨S1024, .f32⟩ : BufTy).Contents (Elt Ideal)) (bt : Fin 2) (s : Fin 2048) (e : Fin 1024) :
    val_main_v16 (F := Ideal) x2 x7 x8 (ix3 bt s e)
      = (∑ d : Fin 1024, x2 (ix3 bt s d) * x7 (ix2 e d)) + x8 (ix1 e) := by
  have hl : ∀ k : Fin 1024, lidx_main_v13 (ix3 bt s e) k = ix3 bt s k := fun k => funext fun a => match a with
    | ⟨0, _⟩ => rfl
    | ⟨1, _⟩ => rfl
    | ⟨2, _⟩ => rfl
  have hr : ∀ k : Fin 1024, ridx_main_v13 (ix3 bt s e) k = ix2 e k := fun k => funext fun a => match a with
    | ⟨0, _⟩ => rfl
    | ⟨1, _⟩ => rfl
  have hb : idx_main_v14 (idx_main_v15 (ix3 bt s e)) = ix1 e := funext fun a => match a with
    | ⟨0, _⟩ => rfl
  rw [val_main_v16_apply, val_main_v13_apply, val_main_v15_apply, val_main_v14_apply, hb]
  simp only [hl, hr]
  rfl

/-- The output projection at `(bt, s, e)`: the row of the merged heads against row `e` of the weights, plus the bias. -/
theorem ref_proj_o (x0 x1 x2 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (bt : Fin 2) (s : Fin 2048) (e : Fin 1024) :
    val_main_v43 (F := Ideal) x0 x1 x2 x3 x4 x5 x6 x7 x8 x9 x10 (ix3 bt s e)
      = (∑ d : Fin 1024, val_main_v39 (F := Ideal) x0 x1 x2 x3 x4 x5 x6 x7 x8 (ix3 bt s d) * x9 (ix2 e d)) + x10 (ix1 e) := by
  have hl : ∀ k : Fin 1024, lidx_main_v40 (ix3 bt s e) k = ix3 bt s k := fun k => funext fun a => match a with
    | ⟨0, _⟩ => rfl
    | ⟨1, _⟩ => rfl
    | ⟨2, _⟩ => rfl
  have hr : ∀ k : Fin 1024, ridx_main_v40 (ix3 bt s e) k = ix2 e k := fun k => funext fun a => match a with
    | ⟨0, _⟩ => rfl
    | ⟨1, _⟩ => rfl
  have hb : idx_main_v41 (idx_main_v42 (ix3 bt s e)) = ix1 e := funext fun a => match a with
    | ⟨0, _⟩ => rfl
  rw [val_main_v43_apply, val_main_v40_apply, val_main_v42_apply, val_main_v41_apply, hb]
  simp only [hl, hr]
  rfl

/-- Column `h · 64 + d` of the model axis: entry `d` of head `h`. -/
abbrev headCol (h : Fin 16) (d : Fin 64) : Fin 1024 := ⟨h.val * 64 + d.val, by have := h.isLt; have := d.isLt; omega⟩

/-- Splitting the model axis into heads and moving the head axis forward reads entry `(bt, h, s, d)` at
    `(bt, s, h · 64 + d)`. -/
theorem split_idx (bt : Fin 2) (h : Fin 16) (s : Fin 2048) (d : Fin 64) :
    idx_main_v5 (idx_main_v6 (ix4 bt h s d)) = ix3 bt s (headCol h d) := by
  have hbt := bt.isLt; have hh := h.isLt; have hs := s.isLt; have hd := d.isLt
  funext a
  match a with
  | ⟨0, _⟩ => exact Fin.ext (by show (((bt.val * 2048 + s.val) * 16 + h.val) * 64 + d.val) / 2097152 = bt.val; omega)
  | ⟨1, _⟩ => exact Fin.ext (by show (((bt.val * 2048 + s.val) * 16 + h.val) * 64 + d.val) / 1024 % 2048 = s.val; omega)
  | ⟨2, _⟩ => exact Fin.ext (by show (((bt.val * 2048 + s.val) * 16 + h.val) * 64 + d.val) % 1024 = h.val * 64 + d.val; omega)

/-- The queries split into heads, read at an index. -/
theorem ref_split_q (x0 : (⟨S2x2048x1024, .f32⟩ : BufTy).Contents (Elt Ideal)) (x3 : (⟨S1024x1024, .f32⟩ : BufTy).Contents (Elt Ideal)) (x4 : (⟨S1024, .f32⟩ : BufTy).Contents (Elt Ideal)) (bt : Fin 2) (h : Fin 16) (s : Fin 2048) (d : Fin 64) :
    val_main_v6 (F := Ideal) x0 x3 x4 (ix4 bt h s d) = val_main_v4 (F := Ideal) x0 x3 x4 (ix3 bt s (headCol h d)) := by
  rw [val_main_v6_apply, val_main_v5_apply, split_idx]

/-- The keys' split reads the same entry (the same reshape and transpose). -/
theorem split_idx_k (bt : Fin 2) (h : Fin 16) (s : Fin 2048) (d : Fin 64) :
    idx_main_v11 (idx_main_v12 (ix4 bt h s d)) = ix3 bt s (headCol h d) := split_idx bt h s d

/-- The values' split reads the same entry. -/
theorem split_idx_v (bt : Fin 2) (h : Fin 16) (s : Fin 2048) (d : Fin 64) :
    idx_main_v17 (idx_main_v18 (ix4 bt h s d)) = ix3 bt s (headCol h d) := split_idx bt h s d

/-- The keys split into heads, read at an index. -/
theorem ref_split_k (x1 : (⟨S2x2048x1024, .f32⟩ : BufTy).Contents (Elt Ideal)) (x5 : (⟨S1024x1024, .f32⟩ : BufTy).Contents (Elt Ideal)) (x6 : (⟨S1024, .f32⟩ : BufTy).Contents (Elt Ideal)) (bt : Fin 2) (h : Fin 16) (s : Fin 2048) (d : Fin 64) :
    val_main_v12 (F := Ideal) x1 x5 x6 (ix4 bt h s d) = val_main_v10 (F := Ideal) x1 x5 x6 (ix3 bt s (headCol h d)) := by
  rw [val_main_v12_apply, val_main_v11_apply, split_idx_k]

/-- The values split into heads, read at an index. -/
theorem ref_split_v (x2 : (⟨S2x2048x1024, .f32⟩ : BufTy).Contents (Elt Ideal)) (x7 : (⟨S1024x1024, .f32⟩ : BufTy).Contents (Elt Ideal)) (x8 : (⟨S1024, .f32⟩ : BufTy).Contents (Elt Ideal)) (bt : Fin 2) (h : Fin 16) (s : Fin 2048) (d : Fin 64) :
    val_main_v18 (F := Ideal) x2 x7 x8 (ix4 bt h s d) = val_main_v16 (F := Ideal) x2 x7 x8 (ix3 bt s (headCol h d)) := by
  rw [val_main_v18_apply, val_main_v17_apply, split_idx_v]

/-- Merging the heads back reads entry `(bt, s, h · 64 + d)` at `(bt, h, s, d)`. -/
theorem merge_idx (bt : Fin 2) (h : Fin 16) (s : Fin 2048) (d : Fin 64) :
    idx_main_v38 (idx_main_v39 (ix3 bt s (headCol h d))) = ix4 bt h s d := by
  have hbt := bt.isLt; have hh := h.isLt; have hs := s.isLt; have hd := d.isLt
  funext a
  match a with
  | ⟨0, _⟩ => exact Fin.ext (by show ((bt.val * 2048 + s.val) * 1024 + (h.val * 64 + d.val)) / 2097152 = bt.val; omega)
  | ⟨1, _⟩ => exact Fin.ext (by show ((bt.val * 2048 + s.val) * 1024 + (h.val * 64 + d.val)) / 64 % 16 = h.val; omega)
  | ⟨2, _⟩ => exact Fin.ext (by show ((bt.val * 2048 + s.val) * 1024 + (h.val * 64 + d.val)) / 1024 % 2048 = s.val; omega)
  | ⟨3, _⟩ => exact Fin.ext (by show ((bt.val * 2048 + s.val) * 1024 + (h.val * 64 + d.val)) % 64 = d.val; omega)

/-- The merged heads, read at an index: the attention output of head `h` at `(bt, h, s, d)`. -/
theorem ref_merge (x0 x1 x2 : (⟨S2x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (bt : Fin 2) (h : Fin 16) (s : Fin 2048) (d : Fin 64) :
    val_main_v39 (F := Ideal) x0 x1 x2 x3 x4 x5 x6 x7 x8 (ix3 bt s (headCol h d))
      = val_main_v37 (F := Ideal) x0 x1 x2 x3 x4 x5 x6 x7 x8 (ix4 bt h s d) := by
  rw [val_main_v39_apply, val_main_v38_apply, merge_idx]

end Reference

end Cert.LinearTile

end
-- ==== Proof.KernelIdealLinear.lean ====
/-
  The four linear layers of the idealized kernel (the query, key and value projections and the output projection), each a
  pipelined launch over eight row blocks of 512 rows: the body multiplies its row block by the whole (transposed) weight
  and adds the bias row.  Block `t` of the result is therefore rows `512 t … 512 t + 511` of ONE whole-array
  function — `lin` of the arrays the launch found — and since the eight blocks tile the result array, the array ends
  holding that function.  Everything is stated at the contents `V` the launch finds, whatever they are.
-/
import proofs.«147173_j49108656063270_2_alg».proof.Proof.KernelIdealFrame
import proofs.«147173_j49108656063270_2_alg».proof.Proof.LinSpec
import proofs.«147173_j49108656063270_2_alg».proof.Proof.LinearTile
import Idealize.ShloMosaic.Lib.ValueIdx
import Idealize.ShloMosaic.Lib.Pipeline.Value
import Idealize.ShloMosaic.PureOps.Ideal.Laws

set_option maxRecDepth 16384

noncomputable section

namespace Cert.KernelIdeal.Linear

open Cert.KernelIdeal Cert.KernelIdeal.Gen Cert.KernelIdeal.GenP Cert.LinSpec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry of a block against one entry of the whole result: the body's tile formula at row `r` of the block is the
    layer's formula at row `p` of the array as soon as row `r` of the row block is row `p` of the row array, the
    weight block is the weight and the bias block the bias. -/
theorem lin_block_eq (out : S512x1024.Idx → EReal) (x0 : S512x1024.Idx → EReal) (x1 : S1024x1024.Idx → EReal) (x2 : S1x1024.Idx → EReal)
    (htile : ∀ (r : Fin 512) (e : Fin 1024), out (ix2 r e) = (∑ d : Fin 1024, x0 (ix2 r d) * x1 (ix2 d e)) + x2 (ix2 0 e))
    (X : S4096x1024.Idx → EReal) (Wt : S1024x1024.Idx → EReal) (B : S1x1024.Idx → EReal)
    (r : Fin 512) (e : Fin 1024) (p : Fin 4096)
    (h0 : ∀ d : Fin 1024, x0 (ix2 r d) = X (ix2 p d))
    (h1 : x1 = Wt) (h2 : x2 = B) :
    out (ix2 r e) = lin X Wt B (ix2 p e) := by
  rw [htile]
  subst h1 h2
  show _ = (∑ d : Fin 1024, X (ix2 p d) * x1 (ix2 d e)) + x2 (ix2 0 e)
  exact congrArg (· + x2 (ix2 0 e)) (Finset.sum_congr rfl fun d _ => by rw [h0 d])

/-! ## Launch 0: rows `main_v1`, weight `main_v10`, bias `main_v11`, result `main_v12` -/

/-- The index maps of launch 0, decided over its eight points: the row operand and the result move with the point along
    the rows; the weight and the bias stay at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` — rows `512 t … 512 t + 511` — of the layer's whole result. -/
theorem flushed0 (c : Dev nD) (t : Fin cfg0.N) :
    (dat0 V c).flushed 3 t = ((cfg0.win 3).blk t).view.read (Elt Ideal) (lin (V c main_v1) (V c main_v10) (V c main_v11)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x1024) hz, View.ld_unit_zero (S := S1x1024) hz]
  obtain ⟨e00, e01, e10, e11, e20, e21, e30, e31⟩ := idx0 t
  have hN : cfg0.N = 8 := N_0
  have ht : t.val < 8 := hN ▸ t.isLt
  refine funext ?_
  show ∀ y : S512x1024.Idx, k0_pay1 (F := Ideal) (iblk0 V c 0 t) (iblk0 V c 1 t) (iblk0 V c 2 t) y
      = lin (V c main_v1) (V c main_v10) (V c main_v11) (((cfg0.win 3).blk t).view.emb y)
  intro y
  obtain ⟨r, e, rfl⟩ : ∃ (r : Fin 512) (e : Fin 1024), y = ix2 r e := ⟨y 0, y 1, eq_ix2 y⟩
  have hemb : ((cfg0.win 3).blk t).view.emb (ix2 r e) = (ix2 (⟨t.val * 512 + r.val, by omega⟩ : Fin 4096) e : S4096x1024.Idx) := by
    funext a; apply Fin.ext
    match a with
    | ⟨0, _⟩ => show win0_3.index t (0 : Fin 2) * 512 + 1 * r.val = t.val * 512 + r.val; omega
    | ⟨1, _⟩ => show win0_3.index t (1 : Fin 2) * 1024 + 1 * e.val = e.val; omega
  rw [hemb]
  refine lin_block_eq _ (iblk0 V c 0 t) (iblk0 V c 1 t) (iblk0 V c 2 t) (Cert.LinearTile.k0_tile _ _ _) _ _ _ r e _ (fun d => ?_) ?_ ?_
  · show V c main_v1 (((cfg0.win 0).blk t).view.emb (ix2 r d)) = V c main_v1 (ix2 (⟨t.val * 512 + r.val, by omega⟩ : Fin 4096) d)
    congr 1; funext a; apply Fin.ext
    match a with
    | ⟨0, _⟩ => show win0_0.index t (0 : Fin 2) * 512 + 1 * r.val = t.val * 512 + r.val; omega
    | ⟨1, _⟩ => show win0_0.index t (1 : Fin 2) * 1024 + 1 * d.val = d.val; omega
  · funext x
    show V c main_v10 (((cfg0.win 1).blk t).view.emb x) = V c main_v10 x
    congr 1; funext a; apply Fin.ext
    match a with
    | ⟨0, _⟩ => show win0_1.index t (0 : Fin 2) * 1024 + 1 * (x 0).val = (x 0).val; omega
    | ⟨1, _⟩ => show win0_1.index t (1 : Fin 2) * 1024 + 1 * (x 1).val = (x 1).val; omega
  · funext x
    show V c main_v11 (((cfg0.win 2).blk t).view.emb x) = V c main_v11 x
    congr 1; funext a; apply Fin.ext
    match a with
    | ⟨0, _⟩ => show win0_2.index t (0 : Fin 2) * 1 + 1 * (x 0).val = (x 0).val; omega
    | ⟨1, _⟩ => show win0_2.index t (1 : Fin 2) * 1024 + 1 * (x 1).val = (x 1).val; omega

/-- An index of the result array lies in point `t`'s block iff each coordinate lies in the block's range on its axis. -/
theorem mem_blk0 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v12).slice (win0_3.rect t)).set ↔ _
  rw [View.set_slice_whole, Rect.mem_set_unit]
  exact Iff.rfl

/-- Row `p` is written by point `p / 512`: the eight blocks tile the array. -/
theorem cover0 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_3 _, ?_⟩
  rw [mem_blk0]
  obtain ⟨-, -, -, -, -, -, e30, e31⟩ := idx0 ⟨(i 0).val / 512, by rw [hN]; omega⟩
  intro a
  match a with
  | ⟨0, _⟩ => show win0_3.index _ (0 : Fin 2) * 512 ≤ (i 0).val ∧ (i 0).val < win0_3.index _ (0 : Fin 2) * 512 + 512; rw [e30]; dsimp only; omega
  | ⟨1, _⟩ => show win0_3.index _ (1 : Fin 2) * 1024 ≤ (i 1).val ∧ (i 1).val < win0_3.index _ (1 : Fin 2) * 1024 + 1024; rw [e31]; omega

/-- After launch 0 its result array holds the layer's whole result of the arrays the launch found. -/
theorem array0 (c : Dev nD) : (dat0 V c).arrAt 3 cfg0.N = lin (V c main_v1) (V c main_v10) (V c main_v11) :=
  (dat0 V c).arrAt_eq_of_cover 3 _ (fun t _ => flushed0 V c t) cover0

/-! ## Launch 1: rows `main_v3`, weight `main_v13`, bias `main_v14`, result `main_v15` -/

/-- The index maps of launch 1, decided over its eight points: the row operand and the result move with the point along
    the rows; the weight and the bias stay at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` — rows `512 t … 512 t + 511` — of the layer's whole result. -/
theorem flushed1 (c : Dev nD) (t : Fin cfg1.N) :
    (dat1 V c).flushed 3 t = ((cfg1.win 3).blk t).view.read (Elt Ideal) (lin (V c main_v3) (V c main_v13) (V c main_v14)) := by
  show (cfg1.win 3).cut (grid1.coords t) ((dat1 V c).after 3 t) = _
  rw [after1_3]
  unfold out1_3
  rw [View.canon_unit_zero hz]
  simp only [View.ld_unit_zero (S := S512x1024) hz, View.ld_unit_zero (S := S1024x1024) hz, View.ld_unit_zero (S := S1x1024) hz]
  obtain ⟨e00, e01, e10, e11, e20, e21, e30, e31⟩ := idx1 t
  have hN : cfg1.N = 8 := N_1
  have ht : t.val < 8 := hN ▸ t.isLt
  refine funext ?_
  show ∀ y : S512x1024.Idx, k1_pay1 (F := Ideal) (iblk1 V c 0 t) (iblk1 V c 1 t) (iblk1 V c 2 t) y
      = lin (V c main_v3) (V c main_v13) (V c main_v14) (((cfg1.win 3).blk t).view.emb y)
  intro y
  obtain ⟨r, e, rfl⟩ : ∃ (r : Fin 512) (e : Fin 1024), y = ix2 r e := ⟨y 0, y 1, eq_ix2 y⟩
  have hemb : ((cfg1.win 3).blk t).view.emb (ix2 r e) = (ix2 (⟨t.val * 512 + r.val, by omega⟩ : Fin 4096) e : S4096x1024.Idx) := by
    funext a; apply Fin.ext
    match a with
    | ⟨0, _⟩ => show win1_3.index t (0 : Fin 2) * 512 + 1 * r.val = t.val * 512 + r.val; omega
    | ⟨1, _⟩ => show win1_3.index t (1 : Fin 2) * 1024 + 1 * e.val = e.val; omega
  rw [hemb]
  refine lin_block_eq _ (iblk1 V c 0 t) (iblk1 V c 1 t) (iblk1 V c 2 t) (Cert.LinearTile.k1_tile _ _ _) _ _ _ r e _ (fun d => ?_) ?_ ?_
  · show V c main_v3 (((cfg1.win 0).blk t).view.emb (ix2 r d)) = V c main_v3 (ix2 (⟨t.val * 512 + r.val, by omega⟩ : Fin 4096) d)
    congr 1; funext a; apply Fin.ext
    match a with
    | ⟨0, _⟩ => show win1_0.index t (0 : Fin 2) * 512 + 1 * r.val = t.val * 512 + r.val; omega
    | ⟨1, _⟩ => show win1_0.index t (1 : Fin 2) * 1024 + 1 * d.val = d.val; omega
  · funext x
    show V c main_v13 (((cfg1.win 1).blk t).view.emb x) = V c main_v13 x
    congr 1; funext a; apply Fin.ext
    match a with
    | ⟨0, _⟩ => show win1_1.index t (0 : Fin 2) * 1024 + 1 * (x 0).val = (x 0).val; omega
    | ⟨1, _⟩ => show win1_1.index t (1 : Fin 2) * 1024 + 1 * (x 1).val = (x 1).val; omega
  · funext x
    show V c main_v14 (((cfg1.win 2).blk t).view.emb x) = V c main_v14 x
    congr 1; funext a; apply Fin.ext
    match a with
    | ⟨0, _⟩ => show win1_2.index t (0 : Fin 2) * 1 + 1 * (x 0).val = (x 0).val; omega
    | ⟨1, _⟩ => show win1_2.index t (1 : Fin 2) * 1024 + 1 * (x 1).val = (x 1).val; omega

/-- An index of the result array lies in point `t`'s block iff each coordinate lies in the block's range on its axis. -/
theorem mem_blk1 (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v15).slice (win1_3.rect t)).set ↔ _
  rw [View.set_slice_whole, Rect.mem_set_unit]
  exact Iff.rfl

/-- Row `p` is written by point `p / 512`: the eight blocks tile the array. -/
theorem cover1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 8 := N_1
  refine ⟨⟨(i 0).val / 512, by rw [hN]; omega⟩, flush1_3 _, ?_⟩
  rw [mem_blk1]
  obtain ⟨-, -, -, -, -, -, e30, e31⟩ := idx1 ⟨(i 0).val / 512, by rw [hN]; omega⟩
  intro a
  match a with
  | ⟨0, _⟩ => show win1_3.index _ (0 : Fin 2) * 512 ≤ (i 0).val ∧ (i 0).val < win1_3.index _ (0 : Fin 2) * 512 + 512; rw [e30]; dsimp only; omega
  | ⟨1, _⟩ => show win1_3.index _ (1 : Fin 2) * 1024 ≤ (i 1).val ∧ (i 1).val < win1_3.index _ (1 : Fin 2) * 1024 + 1024; rw [e31]; omega

/-- After launch 1 its result array holds the layer's whole result of the arrays the launch found. -/
theorem array1 (c : Dev nD) : (dat1 V c).arrAt 3 cfg1.N = lin (V c main_v3) (V c main_v13) (V c main_v14) :=
  (dat1 V c).arrAt_eq_of_cover 3 _ (fun t _ => flushed1 V c t) cover1

/-! ## Launch 2: rows `main_v5`, weight `main_v16`, bias `main_v17`, result `main_v18` -/

/-- The index maps of launch 2, decided over its eight points: the row operand and the result move with the point along
    the rows; the weight and the bias stay at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` — rows `512 t … 512 t + 511` — of the layer's whole result. -/
theorem flushed2 (c : Dev nD) (t : Fin cfg2.N) :
    (dat2 V c).flushed 3 t = ((cfg2.win 3).blk t).view.read (Elt Ideal) (lin (V c main_v5) (V c main_v16) (V c main_v17)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1x1024) hz]
  obtain ⟨e00, e01, e10, e11, e20, e21, e30, e31⟩ := idx2 t
  have hN : cfg2.N = 8 := N_2
  have ht : t.val < 8 := hN ▸ t.isLt
  refine funext ?_
  show ∀ y : S512x1024.Idx, k2_pay1 (F := Ideal) (iblk2 V c 0 t) (iblk2 V c 1 t) (iblk2 V c 2 t) y
      = lin (V c main_v5) (V c main_v16) (V c main_v17) (((cfg2.win 3).blk t).view.emb y)
  intro y
  obtain ⟨r, e, rfl⟩ : ∃ (r : Fin 512) (e : Fin 1024), y = ix2 r e := ⟨y 0, y 1, eq_ix2 y⟩
  have hemb : ((cfg2.win 3).blk t).view.emb (ix2 r e) = (ix2 (⟨t.val * 512 + r.val, by omega⟩ : Fin 4096) e : S4096x1024.Idx) := by
    funext a; apply Fin.ext
    match a with
    | ⟨0, _⟩ => show win2_3.index t (0 : Fin 2) * 512 + 1 * r.val = t.val * 512 + r.val; omega
    | ⟨1, _⟩ => show win2_3.index t (1 : Fin 2) * 1024 + 1 * e.val = e.val; omega
  rw [hemb]
  refine lin_block_eq _ (iblk2 V c 0 t) (iblk2 V c 1 t) (iblk2 V c 2 t) (Cert.LinearTile.k2_tile _ _ _) _ _ _ r e _ (fun d => ?_) ?_ ?_
  · show V c main_v5 (((cfg2.win 0).blk t).view.emb (ix2 r d)) = V c main_v5 (ix2 (⟨t.val * 512 + r.val, by omega⟩ : Fin 4096) d)
    congr 1; funext a; apply Fin.ext
    match a with
    | ⟨0, _⟩ => show win2_0.index t (0 : Fin 2) * 512 + 1 * r.val = t.val * 512 + r.val; omega
    | ⟨1, _⟩ => show win2_0.index t (1 : Fin 2) * 1024 + 1 * d.val = d.val; omega
  · funext x
    show V c main_v16 (((cfg2.win 1).blk t).view.emb x) = V c main_v16 x
    congr 1; funext a; apply Fin.ext
    match a with
    | ⟨0, _⟩ => show win2_1.index t (0 : Fin 2) * 1024 + 1 * (x 0).val = (x 0).val; omega
    | ⟨1, _⟩ => show win2_1.index t (1 : Fin 2) * 1024 + 1 * (x 1).val = (x 1).val; omega
  · funext x
    show V c main_v17 (((cfg2.win 2).blk t).view.emb x) = V c main_v17 x
    congr 1; funext a; apply Fin.ext
    match a with
    | ⟨0, _⟩ => show win2_2.index t (0 : Fin 2) * 1 + 1 * (x 0).val = (x 0).val; omega
    | ⟨1, _⟩ => show win2_2.index t (1 : Fin 2) * 1024 + 1 * (x 1).val = (x 1).val; omega

/-- An index of the result array lies in point `t`'s block iff each coordinate lies in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v18).slice (win2_3.rect t)).set ↔ _
  rw [View.set_slice_whole, Rect.mem_set_unit]
  exact Iff.rfl

/-- Row `p` is written by point `p / 512`: the eight blocks tile the array. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := N_2
  refine ⟨⟨(i 0).val / 512, by rw [hN]; omega⟩, flush2_3 _, ?_⟩
  rw [mem_blk2]
  obtain ⟨-, -, -, -, -, -, e30, e31⟩ := idx2 ⟨(i 0).val / 512, by rw [hN]; omega⟩
  intro a
  match a with
  | ⟨0, _⟩ => show win2_3.index _ (0 : Fin 2) * 512 ≤ (i 0).val ∧ (i 0).val < win2_3.index _ (0 : Fin 2) * 512 + 512; rw [e30]; dsimp only; omega
  | ⟨1, _⟩ => show win2_3.index _ (1 : Fin 2) * 1024 ≤ (i 1).val ∧ (i 1).val < win2_3.index _ (1 : Fin 2) * 1024 + 1024; rw [e31]; omega

/-- After launch 2 its result array holds the layer's whole result of the arrays the launch found. -/
theorem array2 (c : Dev nD) : (dat2 V c).arrAt 3 cfg2.N = lin (V c main_v5) (V c main_v16) (V c main_v17) :=
  (dat2 V c).arrAt_eq_of_cover 3 _ (fun t _ => flushed2 V c t) cover2

/-! ## Launch 4: rows `main_v27`, weight `main_v28`, bias `main_v29`, result `main_v30` -/

/-- The index maps of launch 4, decided over its eight points: the row operand and the result move with the point along
    the rows; the weight and the bias stay at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` — rows `512 t … 512 t + 511` — of the layer's whole result. -/
theorem flushed4 (c : Dev nD) (t : Fin cfg4.N) :
    (dat4 V c).flushed 3 t = ((cfg4.win 3).blk t).view.read (Elt Ideal) (lin (V c main_v27) (V c main_v28) (V c main_v29)) := by
  show (cfg4.win 3).cut (grid4.coords t) ((dat4 V c).after 3 t) = _
  rw [after4_3]
  unfold out4_3
  rw [View.canon_unit_zero hz]
  simp only [View.ld_unit_zero (S := S512x1024) hz, View.ld_unit_zero (S := S1024x1024) hz, View.ld_unit_zero (S := S1x1024) hz]
  obtain ⟨e00, e01, e10, e11, e20, e21, e30, e31⟩ := idx4 t
  have hN : cfg4.N = 8 := N_4
  have ht : t.val < 8 := hN ▸ t.isLt
  refine funext ?_
  show ∀ y : S512x1024.Idx, k4_pay1 (F := Ideal) (iblk4 V c 0 t) (iblk4 V c 1 t) (iblk4 V c 2 t) y
      = lin (V c main_v27) (V c main_v28) (V c main_v29) (((cfg4.win 3).blk t).view.emb y)
  intro y
  obtain ⟨r, e, rfl⟩ : ∃ (r : Fin 512) (e : Fin 1024), y = ix2 r e := ⟨y 0, y 1, eq_ix2 y⟩
  have hemb : ((cfg4.win 3).blk t).view.emb (ix2 r e) = (ix2 (⟨t.val * 512 + r.val, by omega⟩ : Fin 4096) e : S4096x1024.Idx) := by
    funext a; apply Fin.ext
    match a with
    | ⟨0, _⟩ => show win4_3.index t (0 : Fin 2) * 512 + 1 * r.val = t.val * 512 + r.val; omega
    | ⟨1, _⟩ => show win4_3.index t (1 : Fin 2) * 1024 + 1 * e.val = e.val; omega
  rw [hemb]
  refine lin_block_eq _ (iblk4 V c 0 t) (iblk4 V c 1 t) (iblk4 V c 2 t) (Cert.LinearTile.k4_tile _ _ _) _ _ _ r e _ (fun d => ?_) ?_ ?_
  · show V c main_v27 (((cfg4.win 0).blk t).view.emb (ix2 r d)) = V c main_v27 (ix2 (⟨t.val * 512 + r.val, by omega⟩ : Fin 4096) d)
    congr 1; funext a; apply Fin.ext
    match a with
    | ⟨0, _⟩ => show win4_0.index t (0 : Fin 2) * 512 + 1 * r.val = t.val * 512 + r.val; omega
    | ⟨1, _⟩ => show win4_0.index t (1 : Fin 2) * 1024 + 1 * d.val = d.val; omega
  · funext x
    show V c main_v28 (((cfg4.win 1).blk t).view.emb x) = V c main_v28 x
    congr 1; funext a; apply Fin.ext
    match a with
    | ⟨0, _⟩ => show win4_1.index t (0 : Fin 2) * 1024 + 1 * (x 0).val = (x 0).val; omega
    | ⟨1, _⟩ => show win4_1.index t (1 : Fin 2) * 1024 + 1 * (x 1).val = (x 1).val; omega
  · funext x
    show V c main_v29 (((cfg4.win 2).blk t).view.emb x) = V c main_v29 x
    congr 1; funext a; apply Fin.ext
    match a with
    | ⟨0, _⟩ => show win4_2.index t (0 : Fin 2) * 1 + 1 * (x 0).val = (x 0).val; omega
    | ⟨1, _⟩ => show win4_2.index t (1 : Fin 2) * 1024 + 1 * (x 1).val = (x 1).val; omega

/-- An index of the result array lies in point `t`'s block iff each coordinate lies in the block's range on its axis. -/
theorem mem_blk4 (t : Fin cfg4.N) (i : S4096x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v30).slice (win4_3.rect t)).set ↔ _
  rw [View.set_slice_whole, Rect.mem_set_unit]
  exact Iff.rfl

/-- Row `p` is written by point `p / 512`: the eight blocks tile the array. -/
theorem cover4 (i : S4096x1024.Idx) : ∃ t : Fin cfg4.N, (cfg4.win 3).flush t = true ∧ i ∈ ((cfg4.win 3).blk t).view.set := by
  have hi0 : (i 0).val < 4096 := (i 0).isLt
  have hi1 : (i 1).val < 1024 := (i 1).isLt
  have hN : cfg4.N = 8 := N_4
  refine ⟨⟨(i 0).val / 512, by rw [hN]; omega⟩, flush4_3 _, ?_⟩
  rw [mem_blk4]
  obtain ⟨-, -, -, -, -, -, e30, e31⟩ := idx4 ⟨(i 0).val / 512, by rw [hN]; omega⟩
  intro a
  match a with
  | ⟨0, _⟩ => show win4_3.index _ (0 : Fin 2) * 512 ≤ (i 0).val ∧ (i 0).val < win4_3.index _ (0 : Fin 2) * 512 + 512; rw [e30]; dsimp only; omega
  | ⟨1, _⟩ => show win4_3.index _ (1 : Fin 2) * 1024 ≤ (i 1).val ∧ (i 1).val < win4_3.index _ (1 : Fin 2) * 1024 + 1024; rw [e31]; omega

/-- After launch 4 its result array holds the layer's whole result of the arrays the launch found. -/
theorem array4 (c : Dev nD) : (dat4 V c).arrAt 3 cfg4.N = lin (V c main_v27) (V c main_v28) (V c main_v29) :=
  (dat4 V c).arrAt_eq_of_cover 3 _ (fun t _ => flushed4 V c t) cover4

end Cert.KernelIdeal.Linear

end
-- ==== Proof.KernelIdealAttn.lean ====
/-
  The attention launch of the idealized kernel: a grid of 2 · 16 · 4 points — a batch entry, a head and a block of 512
  query rows — whose body reads the point's query block and the head's whole key and value blocks, and writes the
  block's rows of the attention weights and of the context.  Given, for each point, that the body's result at a row and
  column is ONE whole-array function read at the corresponding array index (the tile facts, hypotheses here), what each
  point writes back is its block of that function, and since the 128 blocks tile each result array, each array ends
  holding that function.  Stated at the contents `V` the launch finds, whatever they are.
-/
import proofs.«147173_j49108656063270_2_alg».proof.Proof.KernelIdealFrame
import Idealize.ShloMosaic.Lib.ValueIdx
import Idealize.ShloMosaic.Lib.Pipeline.Value

set_option maxRecDepth 16384

noncomputable section

namespace Cert.KernelIdeal.Attn

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The index maps of the launch, decided over its 128 points: point `t` is batch entry `t / 64`, head `t / 4 % 16`,
    query block `t % 4`; the query, weights and context windows move with all three, the key and value windows with
    the first two. -/
theorem idx3 : ∀ t : Fin cfg3.N,
    (win3_0.index t (0 : Fin 4) = t.val / 64 ∧ win3_0.index t (1 : Fin 4) = t.val / 4 % 16 ∧ win3_0.index t (2 : Fin 4) = t.val % 4 ∧ win3_0.index t (3 : Fin 4) = 0)
    ∧ (win3_1.index t (0 : Fin 4) = t.val / 64 ∧ win3_1.index t (1 : Fin 4) = t.val / 4 % 16 ∧ win3_1.index t (2 : Fin 4) = 0 ∧ win3_1.index t (3 : Fin 4) = 0)
    ∧ (win3_2.index t (0 : Fin 4) = t.val / 64 ∧ win3_2.index t (1 : Fin 4) = t.val / 4 % 16 ∧ win3_2.index t (2 : Fin 4) = 0 ∧ win3_2.index t (3 : Fin 4) = 0)
    ∧ (win3_3.index t (0 : Fin 4) = t.val / 64 ∧ win3_3.index t (1 : Fin 4) = t.val / 4 % 16 ∧ win3_3.index t (2 : Fin 4) = t.val % 4 ∧ win3_3.index t (3 : Fin 4) = 0)
    ∧ (win3_4.index t (0 : Fin 4) = t.val / 64 ∧ win3_4.index t (1 : Fin 4) = t.val / 4 % 16 ∧ win3_4.index t (2 : Fin 4) = t.val % 4 ∧ win3_4.index t (3 : Fin 4) = 0)
    ∧ (grid3.coords t (2 : Fin 3)).val = t.val % 4 :=
  (by decide +kernel : ∀ t : Fin grid3.N, _)

section Weights

variable (c : Dev nD) (Wts : S2x16x2048x2048.Idx → EReal)
  (Htile : ∀ (b : Fin 2) (h : Fin 16) (i : grid3.Coords) (v0 : Vec Ideal S1x1x512x64 .bf16) (v2 : Vec Ideal S1x1x2048x64 .bf16),
    (∀ (r : Fin 512) (d : Fin 64) (q : Fin 2048), q.val = (i 2).val * 512 + r.val → v0 (ix4 (0 : Fin 1) (0 : Fin 1) r d) = V c main_v20 (ix4 b h q d)) →
    (∀ (k : Fin 2048) (d : Fin 64), v2 (ix4 (0 : Fin 1) (0 : Fin 1) k d) = V c main_v22 (ix4 b h k d)) →
    ∀ (r : Fin 512) (k : Fin 2048) (q : Fin 2048), q.val = (i 2).val * 512 + r.val →
      k3_pay3 (F := Ideal) i v0 v2 (ix4 (0 : Fin 1) (0 : Fin 1) r k) = Wts (ix4 b h q k))

include Htile in
/-- What point `t` writes back to the weights array is its block of `Wts`. -/
theorem flushed3_3 (t : Fin cfg3.N) :
    (dat3 V c).flushed 3 t = ((cfg3.win 3).blk t).view.read (Elt Ideal) Wts := by
  show (cfg3.win 3).cut (grid3.coords t) ((dat3 V c).after 3 t) = _
  rw [after3_3]
  unfold out3_3
  rw [View.canon_unit_zero hz4]
  simp only [View.ld_unit_zero (S := S1x1x512x64) hz4, View.ld_unit_zero (S := S1x1x2048x64) hz4]
  obtain ⟨⟨a00, a01, a02, a03⟩, ⟨a10, a11, a12, a13⟩, -, ⟨a30, a31, a32, a33⟩, -, hc2⟩ := idx3 t
  have hN : cfg3.N = 128 := N_3
  have ht : t.val < 128 := hN ▸ t.isLt
  refine funext ?_
  show ∀ y : S1x1x512x2048.Idx, k3_pay3 (F := Ideal) (grid3.coords t) (iblk3 V c 0 t) (iblk3 V c 1 t) y
      = Wts (((cfg3.win 3).blk t).view.emb y)
  intro y
  obtain ⟨u0, u1, r, k, rfl⟩ : ∃ (u0 : Fin 1) (u1 : Fin 1) (r : Fin 512) (k : Fin 2048), y = ix4 u0 u1 r k := ⟨y 0, y 1, y 2, y 3, eq_ix4 y⟩
  obtain rfl : u0 = 0 := Subsingleton.elim _ _
  obtain rfl : u1 = 0 := Subsingleton.elim _ _
  have hemb : ((cfg3.win 3).blk t).view.emb (ix4 (0 : Fin 1) (0 : Fin 1) r k)
      = (ix4 (⟨t.val / 64, by omega⟩ : Fin 2) (⟨t.val / 4 % 16, by omega⟩ : Fin 16) (⟨t.val % 4 * 512 + r.val, by omega⟩ : Fin 2048) k : S2x16x2048x2048.Idx) := by
    funext a; apply Fin.ext
    match a with
    | ⟨0, _⟩ => show win3_3.index t (0 : Fin 4) * 1 + 1 * 0 = t.val / 64; omega
    | ⟨1, _⟩ => show win3_3.index t (1 : Fin 4) * 1 + 1 * 0 = t.val / 4 % 16; omega
    | ⟨2, _⟩ => show win3_3.index t (2 : Fin 4) * 512 + 1 * r.val = t.val % 4 * 512 + r.val; omega
    | ⟨3, _⟩ => show win3_3.index t (3 : Fin 4) * 2048 + 1 * k.val = k.val; omega
  rw [hemb]
  refine Htile _ _ (grid3.coords t) (iblk3 V c 0 t) (iblk3 V c 1 t) (fun r d q hq => ?_) (fun k d => ?_) r k _ (by show t.val % 4 * 512 + r.val = (grid3.coords t (2 : Fin 3)).val * 512 + r.val; omega)
  · show V c main_v20 (((cfg3.win 0).blk t).view.emb (ix4 (0 : Fin 1) (0 : Fin 1) r d)) = V c main_v20 (ix4 (⟨t.val / 64, by omega⟩ : Fin 2) (⟨t.val / 4 % 16, by omega⟩ : Fin 16) q d)
    congr 1; funext a; apply Fin.ext
    have hq' : q.val = (grid3.coords t (2 : Fin 3)).val * 512 + r.val := hq
    match a with
    | ⟨0, _⟩ => show win3_0.index t (0 : Fin 4) * 1 + 1 * 0 = t.val / 64; omega
    | ⟨1, _⟩ => show win3_0.index t (1 : Fin 4) * 1 + 1 * 0 = t.val / 4 % 16; omega
    | ⟨2, _⟩ => show win3_0.index t (2 : Fin 4) * 512 + 1 * r.val = q.val; omega
    | ⟨3, _⟩ => show win3_0.index t (3 : Fin 4) * 64 + 1 * d.val = d.val; omega
  · show V c main_v22 (((cfg3.win 1).blk t).view.emb (ix4 (0 : Fin 1) (0 : Fin 1) k d)) = V c main_v22 (ix4 (⟨t.val / 64, by omega⟩ : Fin 2) (⟨t.val / 4 % 16, by omega⟩ : Fin 16) k d)
    congr 1; funext a; apply Fin.ext
    match a with
    | ⟨0, _⟩ => show win3_1.index t (0 : Fin 4) * 1 + 1 * 0 = t.val / 64; omega
    | ⟨1, _⟩ => show win3_1.index t (1 : Fin 4) * 1 + 1 * 0 = t.val / 4 % 16; omega
    | ⟨2, _⟩ => show win3_1.index t (2 : Fin 4) * 2048 + 1 * k.val = k.val; omega
    | ⟨3, _⟩ => show win3_1.index t (3 : Fin 4) * 64 + 1 * d.val = d.val; omega

/-- An index of the weights array lies in point `t`'s block iff each coordinate lies in the block's range on its axis. -/
theorem mem_blk3_3 (t : Fin cfg3.N) (i : S2x16x2048x2048.Idx) :
    i ∈ ((cfg3.win 3).blk t).view.set ↔ ∀ a : Fin 4, win3_3.index t a * S1x1x512x2048.size a ≤ (i a).val ∧ (i a).val < win3_3.index t a * S1x1x512x2048.size a + S1x1x512x2048.size a := by
  show i ∈ ((View.whole main_v25_0).slice (win3_3.rect t)).set ↔ _
  rw [View.set_slice_whole, Rect.mem_set_unit]
  exact Iff.rfl

/-- Entry `(b, h, q, k)` of the weights is written by the point of batch entry `b`, head `h`, query block `q / 512`. -/
theorem cover3_3 (i : S2x16x2048x2048.Idx) : ∃ t : Fin cfg3.N, (cfg3.win 3).flush t = true ∧ i ∈ ((cfg3.win 3).blk t).view.set := by
  have hi0 : (i 0).val < 2 := (i 0).isLt
  have hi1 : (i 1).val < 16 := (i 1).isLt
  have hi2 : (i 2).val < 2048 := (i 2).isLt
  have hi3 : (i 3).val < 2048 := (i 3).isLt
  have hN : cfg3.N = 128 := N_3
  have hlt : ((i 0).val * 16 + (i 1).val) * 4 + (i 2).val / 512 < cfg3.N := by rw [hN]; omega
  refine ⟨⟨((i 0).val * 16 + (i 1).val) * 4 + (i 2).val / 512, hlt⟩, flush3_3 _, ?_⟩
  rw [mem_blk3_3]
  obtain ⟨-, -, -, ⟨a30, a31, a32, a33⟩, -, -⟩ := idx3 ⟨((i 0).val * 16 + (i 1).val) * 4 + (i 2).val / 512, hlt⟩
  intro a
  match a with
  | ⟨0, _⟩ => show win3_3.index _ (0 : Fin 4) * 1 ≤ (i 0).val ∧ (i 0).val < win3_3.index _ (0 : Fin 4) * 1 + 1; rw [a30]; dsimp only; omega
  | ⟨1, _⟩ => show win3_3.index _ (1 : Fin 4) * 1 ≤ (i 1).val ∧ (i 1).val < win3_3.index _ (1 : Fin 4) * 1 + 1; rw [a31]; dsimp only; omega
  | ⟨2, _⟩ => show win3_3.index _ (2 : Fin 4) * 512 ≤ (i 2).val ∧ (i 2).val < win3_3.index _ (2 : Fin 4) * 512 + 512; rw [a32]; dsimp only; omega
  | ⟨3, _⟩ => show win3_3.index _ (3 : Fin 4) * 2048 ≤ (i 3).val ∧ (i 3).val < win3_3.index _ (3 : Fin 4) * 2048 + 2048; rw [a33]; omega

include Htile in
/-- After the launch the weights array holds `Wts`. -/
theorem array3_3 : (dat3 V c).arrAt 3 cfg3.N = Wts :=
  (dat3 V c).arrAt_eq_of_cover 3 _ (fun t _ => flushed3_3 V c Wts Htile t) cover3_3

end Weights

section Context

variable (c : Dev nD) (Ctx : S2x16x2048x64.Idx → EReal)
  (Htile : ∀ (b : Fin 2) (h : Fin 16) (i : grid3.Coords) (v0 : Vec Ideal S1x1x512x64 .bf16) (v2 v29 : Vec Ideal S1x1x2048x64 .bf16),
    (∀ (r : Fin 512) (d : Fin 64) (q : Fin 2048), q.val = (i 2).val * 512 + r.val → v0 (ix4 (0 : Fin 1) (0 : Fin 1) r d) = V c main_v20 (ix4 b h q d)) →
    (∀ (k : Fin 2048) (d : Fin 64), v2 (ix4 (0 : Fin 1) (0 : Fin 1) k d) = V c main_v22 (ix4 b h k d)) →
    (∀ (k : Fin 2048) (d : Fin 64), v29 (ix4 (0 : Fin 1) (0 : Fin 1) k d) = V c main_v24 (ix4 b h k d)) →
    ∀ (r : Fin 512) (d : Fin 64) (q : Fin 2048), q.val = (i 2).val * 512 + r.val →
      k3_pay1 (F := Ideal) (k3_pay4 (F := Ideal) i v0 v2 v29) (ix4 (0 : Fin 1) (0 : Fin 1) r d) = Ctx (ix4 b h q d))

include Htile in
/-- What point `t` writes back to the context array is its block of `Ctx`. -/
theorem flushed3_4 (t : Fin cfg3.N) :
    (dat3 V c).flushed 4 t = ((cfg3.win 4).blk t).view.read (Elt Ideal) Ctx := by
  show (cfg3.win 4).cut (grid3.coords t) ((dat3 V c).after 4 t) = _
  rw [after3_4]
  unfold out3_4
  rw [View.canon_unit_zero hz4]
  simp only [View.ld_unit_zero (S := S1x1x512x64) hz4, View.ld_unit_zero (S := S1x1x2048x64) hz4]
  obtain ⟨⟨a00, a01, a02, a03⟩, ⟨a10, a11, a12, a13⟩, ⟨a20, a21, a22, a23⟩, -, ⟨a40, a41, a42, a43⟩, hc2⟩ := idx3 t
  have hN : cfg3.N = 128 := N_3
  have ht : t.val < 128 := hN ▸ t.isLt
  refine funext ?_
  show ∀ y : S1x1x512x64.Idx, k3_pay1 (F := Ideal) (k3_pay4 (F := Ideal) (grid3.coords t) (iblk3 V c 0 t) (iblk3 V c 1 t) (iblk3 V c 2 t)) y
      = Ctx (((cfg3.win 4).blk t).view.emb y)
  intro y
  obtain ⟨u0, u1, r, d, rfl⟩ : ∃ (u0 : Fin 1) (u1 : Fin 1) (r : Fin 512) (d : Fin 64), y = ix4 u0 u1 r d := ⟨y 0, y 1, y 2, y 3, eq_ix4 y⟩
  obtain rfl : u0 = 0 := Subsingleton.elim _ _
  obtain rfl : u1 = 0 := Subsingleton.elim _ _
  have hemb : ((cfg3.win 4).blk t).view.emb (ix4 (0 : Fin 1) (0 : Fin 1) r d)
      = (ix4 (⟨t.val / 64, by omega⟩ : Fin 2) (⟨t.val / 4 % 16, by omega⟩ : Fin 16) (⟨t.val % 4 * 512 + r.val, by omega⟩ : Fin 2048) d : S2x16x2048x64.Idx) := by
    funext a; apply Fin.ext
    match a with
    | ⟨0, _⟩ => show win3_4.index t (0 : Fin 4) * 1 + 1 * 0 = t.val / 64; omega
    | ⟨1, _⟩ => show win3_4.index t (1 : Fin 4) * 1 + 1 * 0 = t.val / 4 % 16; omega
    | ⟨2, _⟩ => show win3_4.index t (2 : Fin 4) * 512 + 1 * r.val = t.val % 4 * 512 + r.val; omega
    | ⟨3, _⟩ => show win3_4.index t (3 : Fin 4) * 64 + 1 * d.val = d.val; omega
  rw [hemb]
  refine Htile _ _ (grid3.coords t) (iblk3 V c 0 t) (iblk3 V c 1 t) (iblk3 V c 2 t) (fun r d q hq => ?_) (fun k d => ?_) (fun k d => ?_) r d _ (by show t.val % 4 * 512 + r.val = (grid3.coords t (2 : Fin 3)).val * 512 + r.val; omega)
  · show V c main_v20 (((cfg3.win 0).blk t).view.emb (ix4 (0 : Fin 1) (0 : Fin 1) r d)) = V c main_v20 (ix4 (⟨t.val / 64, by omega⟩ : Fin 2) (⟨t.val / 4 % 16, by omega⟩ : Fin 16) q d)
    congr 1; funext a; apply Fin.ext
    have hq' : q.val = (grid3.coords t (2 : Fin 3)).val * 512 + r.val := hq
    match a with
    | ⟨0, _⟩ => show win3_0.index t (0 : Fin 4) * 1 + 1 * 0 = t.val / 64; omega
    | ⟨1, _⟩ => show win3_0.index t (1 : Fin 4) * 1 + 1 * 0 = t.val / 4 % 16; omega
    | ⟨2, _⟩ => show win3_0.index t (2 : Fin 4) * 512 + 1 * r.val = q.val; omega
    | ⟨3, _⟩ => show win3_0.index t (3 : Fin 4) * 64 + 1 * d.val = d.val; omega
  · show V c main_v22 (((cfg3.win 1).blk t).view.emb (ix4 (0 : Fin 1) (0 : Fin 1) k d)) = V c main_v22 (ix4 (⟨t.val / 64, by omega⟩ : Fin 2) (⟨t.val / 4 % 16, by omega⟩ : Fin 16) k d)
    congr 1; funext a; apply Fin.ext
    match a with
    | ⟨0, _⟩ => show win3_1.index t (0 : Fin 4) * 1 + 1 * 0 = t.val / 64; omega
    | ⟨1, _⟩ => show win3_1.index t (1 : Fin 4) * 1 + 1 * 0 = t.val / 4 % 16; omega
    | ⟨2, _⟩ => show win3_1.index t (2 : Fin 4) * 2048 + 1 * k.val = k.val; omega
    | ⟨3, _⟩ => show win3_1.index t (3 : Fin 4) * 64 + 1 * d.val = d.val; omega
  · show V c main_v24 (((cfg3.win 2).blk t).view.emb (ix4 (0 : Fin 1) (0 : Fin 1) k d)) = V c main_v24 (ix4 (⟨t.val / 64, by omega⟩ : Fin 2) (⟨t.val / 4 % 16, by omega⟩ : Fin 16) k d)
    congr 1; funext a; apply Fin.ext
    match a with
    | ⟨0, _⟩ => show win3_2.index t (0 : Fin 4) * 1 + 1 * 0 = t.val / 64; omega
    | ⟨1, _⟩ => show win3_2.index t (1 : Fin 4) * 1 + 1 * 0 = t.val / 4 % 16; omega
    | ⟨2, _⟩ => show win3_2.index t (2 : Fin 4) * 2048 + 1 * k.val = k.val; omega
    | ⟨3, _⟩ => show win3_2.index t (3 : Fin 4) * 64 + 1 * d.val = d.val; omega

/-- An index of the context array lies in point `t`'s block iff each coordinate lies in the block's range on its axis. -/
theorem mem_blk3_4 (t : Fin cfg3.N) (i : S2x16x2048x64.Idx) :
    i ∈ ((cfg3.win 4).blk t).view.set ↔ ∀ a : Fin 4, win3_4.index t a * S1x1x512x64.size a ≤ (i a).val ∧ (i a).val < win3_4.index t a * S1x1x512x64.size a + S1x1x512x64.size a := by
  show i ∈ ((View.whole main_v25_1).slice (win3_4.rect t)).set ↔ _
  rw [View.set_slice_whole, Rect.mem_set_unit]
  exact Iff.rfl

/-- Entry `(b, h, q, d)` of the context is written by the point of batch entry `b`, head `h`, query block `q / 512`. -/
theorem cover3_4 (i : S2x16x2048x64.Idx) : ∃ t : Fin cfg3.N, (cfg3.win 4).flush t = true ∧ i ∈ ((cfg3.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  have hN : cfg3.N = 128 := N_3
  have hlt : ((i 0).val * 16 + (i 1).val) * 4 + (i 2).val / 512 < cfg3.N := by rw [hN]; omega
  refine ⟨⟨((i 0).val * 16 + (i 1).val) * 4 + (i 2).val / 512, hlt⟩, flush3_4 _, ?_⟩
  rw [mem_blk3_4]
  obtain ⟨-, -, -, -, ⟨a40, a41, a42, a43⟩, -⟩ := idx3 ⟨((i 0).val * 16 + (i 1).val) * 4 + (i 2).val / 512, hlt⟩
  intro a
  match a with
  | ⟨0, _⟩ => show win3_4.index _ (0 : Fin 4) * 1 ≤ (i 0).val ∧ (i 0).val < win3_4.index _ (0 : Fin 4) * 1 + 1; rw [a40]; dsimp only; omega
  | ⟨1, _⟩ => show win3_4.index _ (1 : Fin 4) * 1 ≤ (i 1).val ∧ (i 1).val < win3_4.index _ (1 : Fin 4) * 1 + 1; rw [a41]; dsimp only; omega
  | ⟨2, _⟩ => show win3_4.index _ (2 : Fin 4) * 512 ≤ (i 2).val ∧ (i 2).val < win3_4.index _ (2 : Fin 4) * 512 + 512; rw [a42]; dsimp only; omega
  | ⟨3, _⟩ => show win3_4.index _ (3 : Fin 4) * 64 ≤ (i 3).val ∧ (i 3).val < win3_4.index _ (3 : Fin 4) * 64 + 64; rw [a43]; omega

include Htile in
/-- After the launch the context array holds `Ctx`. -/
theorem array3_4 : (dat3 V c).arrAt 4 cfg3.N = Ctx :=
  (dat3 V c).arrAt_eq_of_cover 4 _ (fun t _ => flushed3_4 V c Ctx Htile t) cover3_4

end Context

end Cert.KernelIdeal.Attn

end
-- ==== Proof.KernelIdealStages.lean ====
/-
  The buffer contents the five launches find, and the two results, read back through @main's stretches of host
  operations at the idealized instance (a change of float format is the identity there): each launch's row operand is
  a reshape of an argument or of an earlier launch's result array, its weight a transposed argument, its bias a
  reshaped argument; the attention launch's operands are the three projections split into heads (a reshape, then the
  transposition that brings the head axis forward); the output projection's row operand is the context with the heads
  merged back.  A buffer no operation of a stretch writes keeps its contents across the stretch, and a launch changes
  only its own arrays.
-/
import proofs.«147173_j49108656063270_2_alg».proof.Proof.KernelIdealFrame
import Idealize.ShloMosaic.Lib.ValueIdx
import Idealize.ShloMosaic.Lib.Pipeline.Value
import Idealize.ShloMosaic.Lib.StableHlo.Run

set_option maxRecDepth 16384

noncomputable section

namespace Cert.KernelIdeal.Stages

open Cert.KernelIdeal Cert.KernelIdeal.Gen Cert.KernelIdeal.GenP
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## The query projection's operands (launch 0) -/

theorem rows_q (c : Dev nD) : (V1 m ρ c main_v1 : S4096x1024.Idx → EReal)
    = shapeCast S4096x1024 (m ((c : Thread nD τ).loc main_arg0) : S2x2048x1024.Idx → EReal) shapeCasts_S2x2048x1024_S4096x1024 := by
  show StableHlo.after hostOps0 (W0 m ρ c) (Proc.devRef .tc main_v1) = _
  after_results
  rfl

theorem weight_q (c : Dev nD) : (V1 m ρ c main_v10 : S1024x1024.Idx → EReal)
    = transpose S1024x1024 [1, 0] (m ((c : Thread nD τ).loc main_arg3) : S1024x1024.Idx → EReal) transposes_S1024x1024_S1024x1024_1_0 := by
  show StableHlo.after hostOps0 (W0 m ρ c) (Proc.devRef .tc main_v10) = _
  after_results
  rfl

theorem bias_q (c : Dev nD) : (V1 m ρ c main_v11 : S1x1024.Idx → EReal)
    = shapeCast S1x1024 (m ((c : Thread nD τ).loc main_arg4) : S1024.Idx → EReal) shapeCasts_S1024_S1x1024 := by
  show StableHlo.after hostOps0 (W0 m ρ c) (Proc.devRef .tc main_v11) = _
  after_results
  rfl

/-! ## The key projection's operands (launch 1) -/

theorem rows_k (c : Dev nD) : (V3 m ρ c main_v3 : S4096x1024.Idx → EReal)
    = shapeCast S4096x1024 (m ((c : Thread nD τ).loc main_arg1) : S2x2048x1024.Idx → EReal) shapeCasts_S2x2048x1024_S4096x1024 := by
  show W3 m ρ c (Proc.devRef .tc main_v3) = _
  rw [show W3 m ρ c (Proc.devRef .tc main_v3) = W2 m ρ c (Proc.devRef .tc main_v3) from by
    show StableHlo.after hostOps1 (W2 m ρ c) (Proc.devRef .tc main_v3) = _
    after_results]
  rw [W2_of_ne m ρ c main_v3 (by decide)]
  show StableHlo.after hostOps0 (W0 m ρ c) (Proc.devRef .tc main_v3) = _
  after_results
  rfl

theorem weight_k (c : Dev nD) : (V3 m ρ c main_v13 : S1024x1024.Idx → EReal)
    = transpose S1024x1024 [1, 0] (m ((c : Thread nD τ).loc main_arg5) : S1024x1024.Idx → EReal) transposes_S1024x1024_S1024x1024_1_0 := by
  show StableHlo.after hostOps1 (W2 m ρ c) (Proc.devRef .tc main_v13) = _
  after_results
  rw [W2_of_ne m ρ c main_v7 (by decide)]
  show transpose S1024x1024 [1, 0] (StableHlo.after hostOps0 (W0 m ρ c) (Proc.devRef .tc main_v7)) _ = _
  after_results
  rfl

theorem bias_k (c : Dev nD) : (V3 m ρ c main_v14 : S1x1024.Idx → EReal)
    = shapeCast S1x1024 (m ((c : Thread nD τ).loc main_arg6) : S1024.Idx → EReal) shapeCasts_S1024_S1x1024 := by
  show StableHlo.after hostOps1 (W2 m ρ c) (Proc.devRef .tc main_v14) = _
  after_results
  rw [W2_of_ne m ρ c main_arg6 (by decide)]
  rw [show W1 m ρ c (Proc.devRef .tc main_arg6) = W0 m ρ c (Proc.devRef .tc main_arg6) from by
    show StableHlo.after hostOps0 (W0 m ρ c) (Proc.devRef .tc main_arg6) = _
    after_results]
  rfl

/-! ## The value projection's operands (launch 2) -/

theorem rows_v (c : Dev nD) : (V5 m ρ c main_v5 : S4096x1024.Idx → EReal)
    = shapeCast S4096x1024 (m ((c : Thread nD τ).loc main_arg2) : S2x2048x1024.Idx → EReal) shapeCasts_S2x2048x1024_S4096x1024 := by
  show W5 m ρ c (Proc.devRef .tc main_v5) = _
  rw [show W5 m ρ c (Proc.devRef .tc main_v5) = W4 m ρ c (Proc.devRef .tc main_v5) from by
    show StableHlo.after hostOps2 (W4 m ρ c) (Proc.devRef .tc main_v5) = _
    after_results]
  rw [W4_of_ne m ρ c main_v5 (by decide)]
  rw [show W3 m ρ c (Proc.devRef .tc main_v5) = W2 m ρ c (Proc.devRef .tc main_v5) from by
    show StableHlo.after hostOps1 (W2 m ρ c) (Proc.devRef .tc main_v5) = _
    after_results]
  rw [W2_of_ne m ρ c main_v5 (by decide)]
  show StableHlo.after hostOps0 (W0 m ρ c) (Proc.devRef .tc main_v5) = _
  after_results
  rfl

theorem weight_v (c : Dev nD) : (V5 m ρ c main_v16 : S1024x1024.Idx → EReal)
    = transpose S1024x1024 [1, 0] (m ((c : Thread nD τ).loc main_arg7) : S1024x1024.Idx → EReal) transposes_S1024x1024_S1024x1024_1_0 := by
  show StableHlo.after hostOps2 (W4 m ρ c) (Proc.devRef .tc main_v16) = _
  after_results
  rw [W4_of_ne m ρ c main_v8 (by decide)]
  rw [show W3 m ρ c (Proc.devRef .tc main_v8) = W2 m ρ c (Proc.devRef .tc main_v8) from by
    show StableHlo.after hostOps1 (W2 m ρ c) (Proc.devRef .tc main_v8) = _
    after_results]
  rw [W2_of_ne m ρ c main_v8 (by decide)]
  show transpose S1024x1024 [1, 0] (StableHlo.after hostOps0 (W0 m ρ c) (Proc.devRef .tc main_v8)) _ = _
  after_results
  rfl

theorem bias_v (c : Dev nD) : (V5 m ρ c main_v17 : S1x1024.Idx → EReal)
    = shapeCast S1x1024 (m ((c : Thread nD τ).loc main_arg8) : S1024.Idx → EReal) shapeCasts_S1024_S1x1024 := by
  show StableHlo.after hostOps2 (W4 m ρ c) (Proc.devRef .tc main_v17) = _
  after_results
  rw [W4_of_ne m ρ c main_arg8 (by decide)]
  rw [show W3 m ρ c (Proc.devRef .tc main_arg8) = W2 m ρ c (Proc.devRef .tc main_arg8) from by
    show StableHlo.after hostOps1 (W2 m ρ c) (Proc.devRef .tc main_arg8) = _
    after_results]
  rw [W2_of_ne m ρ c main_arg8 (by decide)]
  rw [show W1 m ρ c (Proc.devRef .tc main_arg8) = W0 m ρ c (Proc.devRef .tc main_arg8) from by
    show StableHlo.after hostOps0 (W0 m ρ c) (Proc.devRef .tc main_arg8) = _
    after_results]
  rfl

/-! ## The attention launch's operands (launch 3): the projections split into heads -/

theorem heads_q (c : Dev nD) : (V7 m ρ c main_v20 : S2x16x2048x64.Idx → EReal)
    = transpose S2x16x2048x64 [0, 2, 1, 3]
        (shapeCast S2x2048x16x64 ((dat0 (V1 m ρ) c).arrAt 3 cfg0.N : S4096x1024.Idx → EReal) shapeCasts_S4096x1024_S2x2048x16x64)
        transposes_S2x2048x16x64_S2x16x2048x64_0_2_1_3 := by
  show StableHlo.after hostOps3 (W6 m ρ c) (Proc.devRef .tc main_v20) = _
  after_results
  rw [W6_of_ne m ρ c main_v12 (by decide)]
  rw [show W5 m ρ c (Proc.devRef .tc main_v12) = W4 m ρ c (Proc.devRef .tc main_v12) from by
    show StableHlo.after hostOps2 (W4 m ρ c) (Proc.devRef .tc main_v12) = _
    after_results]
  rw [W4_of_ne m ρ c main_v12 (by decide)]
  rw [show W3 m ρ c (Proc.devRef .tc main_v12) = W2 m ρ c (Proc.devRef .tc main_v12) from by
    show StableHlo.after hostOps1 (W2 m ρ c) (Proc.devRef .tc main_v12) = _
    after_results]
  rw [show W2 m ρ c (Proc.devRef .tc main_v12) = (dat0 (V1 m ρ) c).arrAt 3 cfg0.N from W2_arr m ρ c 3]
  rfl

theorem heads_k (c : Dev nD) : (V7 m ρ c main_v22 : S2x16x2048x64.Idx → EReal)
    = transpose S2x16x2048x64 [0, 2, 1, 3]
        (shapeCast S2x2048x16x64 ((dat1 (V3 m ρ) c).arrAt 3 cfg1.N : S4096x1024.Idx → EReal) shapeCasts_S4096x1024_S2x2048x16x64)
        transposes_S2x2048x16x64_S2x16x2048x64_0_2_1_3 := by
  show StableHlo.after hostOps3 (W6 m ρ c) (Proc.devRef .tc main_v22) = _
  after_results
  rw [W6_of_ne m ρ c main_v15 (by decide)]
  rw [show W5 m ρ c (Proc.devRef .tc main_v15) = W4 m ρ c (Proc.devRef .tc main_v15) from by
    show StableHlo.after hostOps2 (W4 m ρ c) (Proc.devRef .tc main_v15) = _
    after_results]
  rw [show W4 m ρ c (Proc.devRef .tc main_v15) = (dat1 (V3 m ρ) c).arrAt 3 cfg1.N from W4_arr m ρ c 3]
  rfl

theorem heads_v (c : Dev nD) : (V7 m ρ c main_v24 : S2x16x2048x64.Idx → EReal)
    = transpose S2x16x2048x64 [0, 2, 1, 3]
        (shapeCast S2x2048x16x64 ((dat2 (V5 m ρ) c).arrAt 3 cfg2.N : S4096x1024.Idx → EReal) shapeCasts_S4096x1024_S2x2048x16x64)
        transposes_S2x2048x16x64_S2x16x2048x64_0_2_1_3 := by
  show StableHlo.after hostOps3 (W6 m ρ c) (Proc.devRef .tc main_v24) = _
  after_results
  rw [show W6 m ρ c (Proc.devRef .tc main_v18) = (dat2 (V5 m ρ) c).arrAt 3 cfg2.N from W6_arr m ρ c 3]
  rfl

/-! ## The output projection's operands (launch 4): the context with the heads merged -/

theorem rows_o (c : Dev nD) : (V9 m ρ c main_v27 : S4096x1024.Idx → EReal)
    = shapeCast S4096x1024
        (transpose S2x2048x16x64 [0, 2, 1, 3] ((dat3 (V7 m ρ) c).arrAt 4 cfg3.N : S2x16x2048x64.Idx → EReal) transposes_S2x16x2048x64_S2x2048x16x64_0_2_1_3)
        shapeCasts_S2x2048x16x64_S4096x1024 := by
  show StableHlo.after hostOps4 (W8 m ρ c) (Proc.devRef .tc main_v27) = _
  after_results
  rw [show W8 m ρ c (Proc.devRef .tc main_v25_1) = (dat3 (V7 m ρ) c).arrAt 4 cfg3.N from W8_arr m ρ c 4]
  rfl

theorem weight_o (c : Dev nD) : (V9 m ρ c main_v28 : S1024x1024.Idx → EReal)
    = transpose S1024x1024 [1, 0] (m ((c : Thread nD τ).loc main_arg9) : S1024x1024.Idx → EReal) transposes_S1024x1024_S1024x1024_1_0 := by
  show StableHlo.after hostOps4 (W8 m ρ c) (Proc.devRef .tc main_v28) = _
  after_results
  rw [W8_of_ne m ρ c main_v9 (by decide)]
  rw [show W7 m ρ c (Proc.devRef .tc main_v9) = W6 m ρ c (Proc.devRef .tc main_v9) from by
    show StableHlo.after hostOps3 (W6 m ρ c) (Proc.devRef .tc main_v9) = _
    after_results]
  rw [W6_of_ne m ρ c main_v9 (by decide)]
  rw [show W5 m ρ c (Proc.devRef .tc main_v9) = W4 m ρ c (Proc.devRef .tc main_v9) from by
    show StableHlo.after hostOps2 (W4 m ρ c) (Proc.devRef .tc main_v9) = _
    after_results]
  rw [W4_of_ne m ρ c main_v9 (by decide)]
  rw [show W3 m ρ c (Proc.devRef .tc main_v9) = W2 m ρ c (Proc.devRef .tc main_v9) from by
    show StableHlo.after hostOps1 (W2 m ρ c) (Proc.devRef .tc main_v9) = _
    after_results]
  rw [W2_of_ne m ρ c main_v9 (by decide)]
  show transpose S1024x1024 [1, 0] (StableHlo.after hostOps0 (W0 m ρ c) (Proc.devRef .tc main_v9)) _ = _
  after_results
  rfl

theorem bias_o (c : Dev nD) : (V9 m ρ c main_v29 : S1x1024.Idx → EReal)
    = shapeCast S1x1024 (m ((c : Thread nD τ).loc main_arg10) : S1024.Idx → EReal) shapeCasts_S1024_S1x1024 := by
  show StableHlo.after hostOps4 (W8 m ρ c) (Proc.devRef .tc main_v29) = _
  after_results
  rw [W8_of_ne m ρ c main_arg10 (by decide)]
  rw [show W7 m ρ c (Proc.devRef .tc main_arg10) = W6 m ρ c (Proc.devRef .tc main_arg10) from by
    show StableHlo.after hostOps3 (W6 m ρ c) (Proc.devRef .tc main_arg10) = _
    after_results]
  rw [W6_of_ne m ρ c main_arg10 (by decide)]
  rw [show W5 m ρ c (Proc.devRef .tc main_arg10) = W4 m ρ c (Proc.devRef .tc main_arg10) from by
    show StableHlo.after hostOps2 (W4 m ρ c) (Proc.devRef .tc main_arg10) = _
    after_results]
  rw [W4_of_ne m ρ c main_arg10 (by decide)]
  rw [show W3 m ρ c (Proc.devRef .tc main_arg10) = W2 m ρ c (Proc.devRef .tc main_arg10) from by
    show StableHlo.after hostOps1 (W2 m ρ c) (Proc.devRef .tc main_arg10) = _
    after_results]
  rw [W2_of_ne m ρ c main_arg10 (by decide)]
  rw [show W1 m ρ c (Proc.devRef .tc main_arg10) = W0 m ρ c (Proc.devRef .tc main_arg10) from by
    show StableHlo.after hostOps0 (W0 m ρ c) (Proc.devRef .tc main_arg10) = _
    after_results]
  rfl

/-! ## The two results at the last boundary -/

theorem result_out (c : Dev nD) : (W11 m ρ c (Proc.devRef .tc main_v31) : S2x2048x1024.Idx → EReal)
    = shapeCast S2x2048x1024 ((dat4 (V9 m ρ) c).arrAt 3 cfg4.N : S4096x1024.Idx → EReal) shapeCasts_S4096x1024_S2x2048x1024 := by
  show StableHlo.after hostOps5 (W10 m ρ c) (Proc.devRef .tc main_v31) = _
  after_results
  rw [show W10 m ρ c (Proc.devRef .tc main_v30) = (dat4 (V9 m ρ) c).arrAt 3 cfg4.N from W10_arr m ρ c 3]
  rfl

theorem result_weights (c : Dev nD) : (W11 m ρ c (Proc.devRef .tc main_v25_0) : S2x16x2048x2048.Idx → EReal)
    = (dat3 (V7 m ρ) c).arrAt 3 cfg3.N := by
  rw [show W11 m ρ c (Proc.devRef .tc main_v25_0) = W10 m ρ c (Proc.devRef .tc main_v25_0) from by
    show StableHlo.after hostOps5 (W10 m ρ c) (Proc.devRef .tc main_v25_0) = _
    after_results]
  rw [W10_of_ne m ρ c main_v25_0 (by decide)]
  rw [show W9 m ρ c (Proc.devRef .tc main_v25_0) = W8 m ρ c (Proc.devRef .tc main_v25_0) from by
    show StableHlo.after hostOps4 (W8 m ρ c) (Proc.devRef .tc main_v25_0) = _
    after_results]
  exact W8_arr m ρ c 3

end Cert.KernelIdeal.Stages

end
-- ==== Proof.LinearArray.lean ====
/-
  The kernel's host-side layout stages joined to the reference's stages, as equalities of whole arrays at the ideal
  values: a linear layer of the flattened input (rows `bt · 2048 + s`), the transposed weights and the bias row is
  the reference's projection, flattened; the flattened projection split into heads is the reference's split; and the
  linear layer of the merged heads, unflattened, is the reference's result. The shape facts the layout operations take
  are hypotheses, so the equalities apply whatever proof of them a term carries.
-/
import proofs.«147173_j49108656063270_2_alg».proof.Proof.LinSpec
import proofs.«147173_j49108656063270_2_alg».proof.Proof.LinearTile
import proofs.«147173_j49108656063270_2_alg».proof.Proof.Gen.ReferenceIdeal.Read
import proofs.«147173_j49108656063270_2_alg».proof.KernelIdeal
import proofs.«147173_j49108656063270_2_alg».proof.ReferenceIdeal
import Idealize.ShloMosaic.Lib.ValueIdx
import Idealize.ShloMosaic.Lib.Pipeline.Value
import Idealize.ShloMosaic.Lib.ValueLayout

noncomputable section

namespace Cert.LinearArray

open Idealize.ShloMosaic Idealize.SL.Sem Idealize.ShloMosaic.ValueIdx
open Cert.ReferenceIdeal.Read Cert.LinSpec Cert.LinearTile
open scoped BigOperators

/-! ## The projections -/

/-- Row `p` of the flattened `4096 × 1024` array is row `(p / 2048, p % 2048)` of the `2 × 2048 × 1024` one. -/
theorem flat_row {α : Type} (y : Cert.KernelIdeal.S2x2048x1024.Idx → α) (h1 : Cert.KernelIdeal.S2x2048x1024.ShapeCasts Cert.KernelIdeal.S4096x1024)
    (p : Fin 4096) (c : Fin 1024) :
    shapeCast Cert.KernelIdeal.S4096x1024 y h1 (ix2 p c)
      = y (ix3 (⟨p.val / 2048, by have := p.isLt; omega⟩ : Fin 2) (⟨p.val % 2048, by omega⟩ : Fin 2048) c) :=
  shapeCast_apply y h1 (ix2 p c) _ (by
    rewrite [Shape.rowMajor_val_three, Shape.rowMajor_val_two]
    have hp := p.isLt
    show (p.val / 2048 * 2048 + p.val % 2048) * 1024 + c.val = p.val * 1024 + c.val
    omega)

/-- The transposed weights at `(d, e)` are the weights at `(e, d)`. -/
theorem wt_apply {α : Type} (w : Cert.KernelIdeal.S1024x1024.Idx → α) (h2 : Cert.KernelIdeal.S1024x1024.Transposes [1, 0] Cert.KernelIdeal.S1024x1024)
    (d e : Fin 1024) : transpose Cert.KernelIdeal.S1024x1024 [1, 0] w h2 (ix2 d e) = w (ix2 e d) :=
  transpose_apply [1, 0] w h2 (ix2 d e) (ix2 e d) (fun b => match b with
    | ⟨0, _⟩ => rfl
    | ⟨1, _⟩ => rfl)

/-- The bias as a one-row array at `(0, e)` is the bias at `e`. -/
theorem bias_row {α : Type} (b : Cert.KernelIdeal.S1024.Idx → α) (h3 : Cert.KernelIdeal.S1024.ShapeCasts Cert.KernelIdeal.S1x1024) (e : Fin 1024) :
    shapeCast Cert.KernelIdeal.S1x1024 b h3 (ix2 0 e) = b (ix1 e) :=
  shapeCast_apply b h3 (ix2 0 e) (ix1 e) (by
    rewrite [Shape.rowMajor_val_one, Shape.rowMajor_val_two]
    show e.val = 0 * 1024 + e.val
    omega)

/-- The query projection as a whole array: the linear layer of the flattened input, the transposed weights and the
    bias row is the reference's projection, flattened. -/
theorem lin_proj_q (x0 : (⟨Cert.ReferenceIdeal.S2x2048x1024, .f32⟩ : BufTy).Contents (Elt Ideal)) (x3 : (⟨Cert.ReferenceIdeal.S1024x1024, .f32⟩ : BufTy).Contents (Elt Ideal)) (x4 : (⟨Cert.ReferenceIdeal.S1024, .f32⟩ : BufTy).Contents (Elt Ideal))
    (h1 : Cert.KernelIdeal.S2x2048x1024.ShapeCasts Cert.KernelIdeal.S4096x1024) (h2 : Cert.KernelIdeal.S1024x1024.Transposes [1, 0] Cert.KernelIdeal.S1024x1024)
    (h3 : Cert.KernelIdeal.S1024.ShapeCasts Cert.KernelIdeal.S1x1024) :
    lin (shapeCast Cert.KernelIdeal.S4096x1024 x0 h1) (transpose Cert.KernelIdeal.S1024x1024 [1, 0] x3 h2) (shapeCast Cert.KernelIdeal.S1x1024 x4 h3)
      = shapeCast Cert.KernelIdeal.S4096x1024 (val_main_v4 (F := Ideal) x0 x3 x4) h1 := by
  funext j
  obtain ⟨p, e, rfl⟩ : ∃ (p : Fin 4096) (e : Fin 1024), j = ix2 p e := ⟨j 0, j 1, eq_ix2 j⟩
  rw [lin_apply, flat_row, ref_proj_q, bias_row]
  refine congrArg (· + _) (Finset.sum_congr rfl fun d _ => ?_)
  rw [flat_row, wt_apply]

/-- The key projection as a whole array. -/
theorem lin_proj_k (x1 : (⟨Cert.ReferenceIdeal.S2x2048x1024, .f32⟩ : BufTy).Contents (Elt Ideal)) (x5 : (⟨Cert.ReferenceIdeal.S1024x1024, .f32⟩ : BufTy).Contents (Elt Ideal)) (x6 : (⟨Cert.ReferenceIdeal.S1024, .f32⟩ : BufTy).Contents (Elt Ideal))
    (h1 : Cert.KernelIdeal.S2x2048x1024.ShapeCasts Cert.KernelIdeal.S4096x1024) (h2 : Cert.KernelIdeal.S1024x1024.Transposes [1, 0] Cert.KernelIdeal.S1024x1024)
    (h3 : Cert.KernelIdeal.S1024.ShapeCasts Cert.KernelIdeal.S1x1024) :
    lin (shapeCast Cert.KernelIdeal.S4096x1024 x1 h1) (transpose Cert.KernelIdeal.S1024x1024 [1, 0] x5 h2) (shapeCast Cert.KernelIdeal.S1x1024 x6 h3)
      = shapeCast Cert.KernelIdeal.S4096x1024 (val_main_v10 (F := Ideal) x1 x5 x6) h1 := by
  funext j
  obtain ⟨p, e, rfl⟩ : ∃ (p : Fin 4096) (e : Fin 1024), j = ix2 p e := ⟨j 0, j 1, eq_ix2 j⟩
  rw [lin_apply, flat_row, ref_proj_k, bias_row]
  refine congrArg (· + _) (Finset.sum_congr rfl fun d _ => ?_)
  rw [flat_row, wt_apply]

/-- The value projection as a whole array. -/
theorem lin_proj_v (x2 : (⟨Cert.ReferenceIdeal.S2x2048x1024, .f32⟩ : BufTy).Contents (Elt Ideal)) (x7 : (⟨Cert.ReferenceIdeal.S1024x1024, .f32⟩ : BufTy).Contents (Elt Ideal)) (x8 : (⟨Cert.ReferenceIdeal.S1024, .f32⟩ : BufTy).Contents (Elt Ideal))
    (h1 : Cert.KernelIdeal.S2x2048x1024.ShapeCasts Cert.KernelIdeal.S4096x1024) (h2 : Cert.KernelIdeal.S1024x1024.Transposes [1, 0] Cert.KernelIdeal.S1024x1024)
    (h3 : Cert.KernelIdeal.S1024.ShapeCasts Cert.KernelIdeal.S1x1024) :
    lin (shapeCast Cert.KernelIdeal.S4096x1024 x2 h1) (transpose Cert.KernelIdeal.S1024x1024 [1, 0] x7 h2) (shapeCast Cert.KernelIdeal.S1x1024 x8 h3)
      = shapeCast Cert.KernelIdeal.S4096x1024 (val_main_v16 (F := Ideal) x2 x7 x8) h1 := by
  funext j
  obtain ⟨p, e, rfl⟩ : ∃ (p : Fin 4096) (e : Fin 1024), j = ix2 p e := ⟨j 0, j 1, eq_ix2 j⟩
  rw [lin_apply, flat_row, ref_proj_v, bias_row]
  refine congrArg (· + _) (Finset.sum_congr rfl fun d _ => ?_)
  rw [flat_row, wt_apply]

/-! ## The head split -/

/-- Flattening `2 × 2048 × 1024` to `4096 × 1024`, splitting into `2 × 2048 × 16 × 64` and moving the head axis forward
    reads entry `(bt, h, s, d)` at `(bt, s, h · 64 + d)`. -/
theorem split_cast {α : Type} (y : Cert.KernelIdeal.S2x2048x1024.Idx → α)
    (h1 : Cert.KernelIdeal.S2x2048x1024.ShapeCasts Cert.KernelIdeal.S4096x1024) (h4 : Cert.KernelIdeal.S4096x1024.ShapeCasts Cert.KernelIdeal.S2x2048x16x64)
    (h5 : Cert.KernelIdeal.S2x2048x16x64.Transposes [0, 2, 1, 3] Cert.KernelIdeal.S2x16x2048x64)
    (bt : Fin 2) (h : Fin 16) (s : Fin 2048) (d : Fin 64) :
    transpose Cert.KernelIdeal.S2x16x2048x64 [0, 2, 1, 3]
        (shapeCast Cert.KernelIdeal.S2x2048x16x64 (shapeCast Cert.KernelIdeal.S4096x1024 y h1) h4) h5 (ix4 bt h s d)
      = y (ix3 bt s (headCol h d)) := by
  have hbt := bt.isLt; have hh := h.isLt; have hs := s.isLt; have hd := d.isLt
  rw [transpose_apply [0, 2, 1, 3] _ h5 (ix4 bt h s d) (ix4 bt s h d) (fun b => match b with
    | ⟨0, _⟩ => rfl
    | ⟨1, _⟩ => rfl
    | ⟨2, _⟩ => rfl
    | ⟨3, _⟩ => rfl)]
  rw [shapeCast_apply _ h4 (ix4 bt s h d)
    (ix2 (⟨bt.val * 2048 + s.val, by omega⟩ : Fin 4096) (headCol h d)) (by
      rewrite [Shape.rowMajor_val_two, Shape.rowMajor_val_four]
      show (bt.val * 2048 + s.val) * 1024 + (h.val * 64 + d.val) = ((bt.val * 2048 + s.val) * 16 + h.val) * 64 + d.val
      omega)]
  exact shapeCast_apply y h1 _ (ix3 bt s (headCol h d)) (by
    rewrite [Shape.rowMajor_val_three, Shape.rowMajor_val_two]
    rfl)

/-- The kernel's host-side head split of the flattened query projection is the reference's split queries. -/
theorem head_split_q (x0 : (⟨Cert.ReferenceIdeal.S2x2048x1024, .f32⟩ : BufTy).Contents (Elt Ideal)) (x3 : (⟨Cert.ReferenceIdeal.S1024x1024, .f32⟩ : BufTy).Contents (Elt Ideal)) (x4 : (⟨Cert.ReferenceIdeal.S1024, .f32⟩ : BufTy).Contents (Elt Ideal))
    (h1 : Cert.KernelIdeal.S2x2048x1024.ShapeCasts Cert.KernelIdeal.S4096x1024) (h4 : Cert.KernelIdeal.S4096x1024.ShapeCasts Cert.KernelIdeal.S2x2048x16x64)
    (h5 : Cert.KernelIdeal.S2x2048x16x64.Transposes [0, 2, 1, 3] Cert.KernelIdeal.S2x16x2048x64) :
    transpose Cert.KernelIdeal.S2x16x2048x64 [0, 2, 1, 3]
        (shapeCast Cert.KernelIdeal.S2x2048x16x64 (shapeCast Cert.KernelIdeal.S4096x1024 (val_main_v4 (F := Ideal) x0 x3 x4) h1) h4) h5
      = val_main_v6 (F := Ideal) x0 x3 x4 := by
  funext i
  obtain ⟨bt, h, s, d, rfl⟩ : ∃ (bt : Fin 2) (h : Fin 16) (s : Fin 2048) (d : Fin 64), i = ix4 bt h s d :=
    ⟨i 0, i 1, i 2, i 3, eq_ix4 i⟩
  rw [split_cast, ref_split_q]

/-- The same for the keys. -/
theorem head_split_k (x1 : (⟨Cert.ReferenceIdeal.S2x2048x1024, .f32⟩ : BufTy).Contents (Elt Ideal)) (x5 : (⟨Cert.ReferenceIdeal.S1024x1024, .f32⟩ : BufTy).Contents (Elt Ideal)) (x6 : (⟨Cert.ReferenceIdeal.S1024, .f32⟩ : BufTy).Contents (Elt Ideal))
    (h1 : Cert.KernelIdeal.S2x2048x1024.ShapeCasts Cert.KernelIdeal.S4096x1024) (h4 : Cert.KernelIdeal.S4096x1024.ShapeCasts Cert.KernelIdeal.S2x2048x16x64)
    (h5 : Cert.KernelIdeal.S2x2048x16x64.Transposes [0, 2, 1, 3] Cert.KernelIdeal.S2x16x2048x64) :
    transpose Cert.KernelIdeal.S2x16x2048x64 [0, 2, 1, 3]
        (shapeCast Cert.KernelIdeal.S2x2048x16x64 (shapeCast Cert.KernelIdeal.S4096x1024 (val_main_v10 (F := Ideal) x1 x5 x6) h1) h4) h5
      = val_main_v12 (F := Ideal) x1 x5 x6 := by
  funext i
  obtain ⟨bt, h, s, d, rfl⟩ : ∃ (bt : Fin 2) (h : Fin 16) (s : Fin 2048) (d : Fin 64), i = ix4 bt h s d :=
    ⟨i 0, i 1, i 2, i 3, eq_ix4 i⟩
  rw [split_cast, ref_split_k]

/-- The same for the values. -/
theorem head_split_v (x2 : (⟨Cert.ReferenceIdeal.S2x2048x1024, .f32⟩ : BufTy).Contents (Elt Ideal)) (x7 : (⟨Cert.ReferenceIdeal.S1024x1024, .f32⟩ : BufTy).Contents (Elt Ideal)) (x8 : (⟨Cert.ReferenceIdeal.S1024, .f32⟩ : BufTy).Contents (Elt Ideal))
    (h1 : Cert.KernelIdeal.S2x2048x1024.ShapeCasts Cert.KernelIdeal.S4096x1024) (h4 : Cert.KernelIdeal.S4096x1024.ShapeCasts Cert.KernelIdeal.S2x2048x16x64)
    (h5 : Cert.KernelIdeal.S2x2048x16x64.Transposes [0, 2, 1, 3] Cert.KernelIdeal.S2x16x2048x64) :
    transpose Cert.KernelIdeal.S2x16x2048x64 [0, 2, 1, 3]
        (shapeCast Cert.KernelIdeal.S2x2048x16x64 (shapeCast Cert.KernelIdeal.S4096x1024 (val_main_v16 (F := Ideal) x2 x7 x8) h1) h4) h5
      = val_main_v18 (F := Ideal) x2 x7 x8 := by
  funext i
  obtain ⟨bt, h, s, d, rfl⟩ : ∃ (bt : Fin 2) (h : Fin 16) (s : Fin 2048) (d : Fin 64), i = ix4 bt h s d :=
    ⟨i 0, i 1, i 2, i 3, eq_ix4 i⟩
  rw [split_cast, ref_split_v]

/-! ## The head merge and the output projection -/

/-- Moving the head axis back and flattening `2 × 2048 × 16 × 64` to `4096 × 1024` reads row `bt · 2048 + s`, column
    `h · 64 + d` at `(bt, h, s, d)`. -/
theorem merge_cast {α : Type} (y : Cert.KernelIdeal.S2x16x2048x64.Idx → α)
    (h7 : Cert.KernelIdeal.S2x16x2048x64.Transposes [0, 2, 1, 3] Cert.KernelIdeal.S2x2048x16x64) (h8 : Cert.KernelIdeal.S2x2048x16x64.ShapeCasts Cert.KernelIdeal.S4096x1024)
    (bt : Fin 2) (h : Fin 16) (s : Fin 2048) (d : Fin 64) :
    shapeCast Cert.KernelIdeal.S4096x1024 (transpose Cert.KernelIdeal.S2x2048x16x64 [0, 2, 1, 3] y h7) h8
        (ix2 (⟨bt.val * 2048 + s.val, by have := bt.isLt; have := s.isLt; omega⟩ : Fin 4096) (headCol h d))
      = y (ix4 bt h s d) := by
  have hbt := bt.isLt; have hh := h.isLt; have hs := s.isLt; have hd := d.isLt
  rw [shapeCast_apply _ h8 _ (ix4 bt s h d) (by
      rewrite [Shape.rowMajor_val_four, Shape.rowMajor_val_two]
      show ((bt.val * 2048 + s.val) * 16 + h.val) * 64 + d.val = (bt.val * 2048 + s.val) * 1024 + (h.val * 64 + d.val)
      omega)]
  exact transpose_apply [0, 2, 1, 3] y h7 (ix4 bt s h d) (ix4 bt h s d) (fun b => match b with
    | ⟨0, _⟩ => rfl
    | ⟨1, _⟩ => rfl
    | ⟨2, _⟩ => rfl
    | ⟨3, _⟩ => rfl)

/-- Every column of the model axis is a head's entry. -/
theorem headCol_div_mod (c : Fin 1024) :
    headCol (⟨c.val / 64, by have := c.isLt; omega⟩ : Fin 16) (⟨c.val % 64, by omega⟩ : Fin 64) = c :=
  Fin.ext (by show c.val / 64 * 64 + c.val % 64 = c.val; omega)

/-- Row `(bt, s)` of the unflattened `4096 × 1024` array is row `bt · 2048 + s` of it. -/
theorem unflat_row {α : Type} (y : Cert.KernelIdeal.S4096x1024.Idx → α) (h9 : Cert.KernelIdeal.S4096x1024.ShapeCasts Cert.KernelIdeal.S2x2048x1024)
    (bt : Fin 2) (s : Fin 2048) (c : Fin 1024) :
    shapeCast Cert.KernelIdeal.S2x2048x1024 y h9 (ix3 bt s c)
      = y (ix2 (⟨bt.val * 2048 + s.val, by have := bt.isLt; have := s.isLt; omega⟩ : Fin 4096) c) :=
  shapeCast_apply y h9 (ix3 bt s c) _ (by
    rewrite [Shape.rowMajor_val_two, Shape.rowMajor_val_three]
    rfl)

/-- The output projection as a whole array: the linear layer of the merged attention output, the transposed weights
    and the bias row, unflattened, is the reference's result. -/
theorem out_proj (ctx : Cert.KernelIdeal.S2x16x2048x64.Idx → EReal)
    (x0 x1 x2 : (⟨Cert.ReferenceIdeal.S2x2048x1024, .f32⟩ : BufTy).Contents (Elt Ideal)) (x3 : (⟨Cert.ReferenceIdeal.S1024x1024, .f32⟩ : BufTy).Contents (Elt Ideal)) (x4 : (⟨Cert.ReferenceIdeal.S1024, .f32⟩ : BufTy).Contents (Elt Ideal)) (x5 : (⟨Cert.ReferenceIdeal.S1024x1024, .f32⟩ : BufTy).Contents (Elt Ideal)) (x6 : (⟨Cert.ReferenceIdeal.S1024, .f32⟩ : BufTy).Contents (Elt Ideal)) (x7 : (⟨Cert.ReferenceIdeal.S1024x1024, .f32⟩ : BufTy).Contents (Elt Ideal)) (x8 : (⟨Cert.ReferenceIdeal.S1024, .f32⟩ : BufTy).Contents (Elt Ideal)) (x9 : (⟨Cert.ReferenceIdeal.S1024x1024, .f32⟩ : BufTy).Contents (Elt Ideal)) (x10 : (⟨Cert.ReferenceIdeal.S1024, .f32⟩ : BufTy).Contents (Elt Ideal))
    (hctx : ctx = val_main_v37 (F := Ideal) x0 x1 x2 x3 x4 x5 x6 x7 x8)
    (h7 : Cert.KernelIdeal.S2x16x2048x64.Transposes [0, 2, 1, 3] Cert.KernelIdeal.S2x2048x16x64) (h8 : Cert.KernelIdeal.S2x2048x16x64.ShapeCasts Cert.KernelIdeal.S4096x1024)
    (h2 : Cert.KernelIdeal.S1024x1024.Transposes [1, 0] Cert.KernelIdeal.S1024x1024) (h3 : Cert.KernelIdeal.S1024.ShapeCasts Cert.KernelIdeal.S1x1024)
    (h9 : Cert.KernelIdeal.S4096x1024.ShapeCasts Cert.KernelIdeal.S2x2048x1024) :
    shapeCast Cert.KernelIdeal.S2x2048x1024
        (lin (shapeCast Cert.KernelIdeal.S4096x1024 (transpose Cert.KernelIdeal.S2x2048x16x64 [0, 2, 1, 3] ctx h7) h8)
          (transpose Cert.KernelIdeal.S1024x1024 [1, 0] x9 h2) (shapeCast Cert.KernelIdeal.S1x1024 x10 h3)) h9
      = val_main_v43 (F := Ideal) x0 x1 x2 x3 x4 x5 x6 x7 x8 x9 x10 := by
  subst hctx
  funext i
  obtain ⟨bt, s, e, rfl⟩ : ∃ (bt : Fin 2) (s : Fin 2048) (e : Fin 1024), i = ix3 bt s e := ⟨i 0, i 1, i 2, eq_ix3 i⟩
  rw [unflat_row, lin_apply, ref_proj_o, bias_row]
  refine congrArg (· + _) (Finset.sum_congr rfl fun c _ => ?_)
  rw [wt_apply, ← headCol_div_mod c, merge_cast, ref_merge]

end Cert.LinearArray

end
-- ==== Proof.AttnConsts.lean ====
/-
  The float constants of the attention kernel and of its reference, as the extended reals their patterns denote
  at the ideal instance, and the one law between them: scaling a score by the word of `0.125` is dividing it by
  the square root of the word of `64.0`, on every extended real. Stated once, here, so that no other module of
  this certificate unfolds the pattern decoder.
-/
import Idealize.ShloMosaic.PureOps.Ideal

noncomputable section

namespace Cert.AttnConsts

open Idealize.ShloMosaic

/-- The pattern of `-∞` denotes `⊥`. -/
theorem ofBits_neg_inf : Ideal.ofBits .f32 0xFF800000#32 = (⊥ : EReal) := by
  simp [Ideal.ofBits, Ideal.ieee]

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The square root of `64` is `8`. -/
theorem sqrt_64 : Ideal.sqrt ((64 : ℝ) : EReal) = ((8 : ℝ) : EReal) := by
  rw [Ideal.sqrt_coe, if_neg (by norm_num)]
  have h : Real.sqrt 64 = 8 := by
    rw [show (64 : ℝ) = 8 ^ 2 by norm_num, Real.sqrt_sq (by norm_num)]
  rw [h]

/-- Scaling by `0.125` is dividing by `√64`, at the infinities too. -/
theorem scale_eq_div (x : EReal) :
    x * Ideal.ofBits .f32 0x3E000000#32 = Ideal.div x (Ideal.sqrt (Ideal.ofBits .f32 0x42800000#32)) := by
  rw [ofBits_64, sqrt_64, Ideal.div_coe (by norm_num : (8 : ℝ) ≠ 0), ofBits_eighth]

end Cert.AttnConsts

end
-- ==== Proof.AttnTile.lean ====
/-
  ONE ATTENTION TILE. At a grid point `i` the attention kernel holds a block of 512 query rows
  `q : [1, 1, 512, 64]`, all 2048 key rows `k : [1, 1, 2048, 64]` and all 2048 value rows `v` of one (batch, head)
  pair, and computes, for row `r` of the block and key position `c`,

      s[r, c] = (∑ d, q[r, d] · k[c, d]) · 0.125,      m[r, c] = ⊥ if c > i₂ · 512 + r, else s[r, c],
      p[r, c] = exp (m[r, c] − max_c' m[r, c']),       w[r, c] = p[r, c] / ∑ c', p[r, c'],
      o[r, d] = ∑ c, w[r, c] · v[c, d].

  The jnp reference computes the same over whole arrays `Q, K, V : [2, 16, 2048, 64]`: the scores divided by
  `√64`, `-∞` above the diagonal, the row maximum (joined with `-∞`), the exponentials, their row sums (from `0`),
  the quotient, and the product with `V`. At the ideal instance every step is the textbook one on the extended reals,
  so the two agree term by term as soon as the blocks ARE the reference's arrays at the tile's rows: no analysis, only
    · the scale: `x · 0.125 = x / √64` on every extended real (the constants' module),
    · the mask value: the kernel's named constant and the pattern of `-∞` both denote `⊥`, and `max ⊥ y = y`,
    · the mask bit: signed comparisons of words of naturals below `2^31` are the naturals' order, so both masks are
      "row < column" with the row `i₂ · 512 + r`,
    · the two reductions as a fold of `max` and a sum over the 2048 key positions, and the two products as sums over
      the head dimension and over the key positions.
  `weights_tile` and `context_tile` are the two results; `qrow i r` names the global query row `i₂ · 512 + r`.
-/
import proofs.«147173_j49108656063270_2_alg».proof.Proof.Gen.KernelIdeal.Skeleton
import proofs.«147173_j49108656063270_2_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws
import proofs.«147173_j49108656063270_2_alg».proof.Proof.AttnConsts

noncomputable section

namespace Cert.AttnTile

open Idealize.ShloMosaic Idealize.ShloMosaic.ValueIdx Idealize.SL.Sem

/-! ## The causal mask's words -/

/-- A natural number below `2^31`, as a 32-bit word read signed, is itself. -/
theorem toInt_ofNat_small (n : Nat) (h : n < 2 ^ 31) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- Signed "greater than" on two small naturals' words is the order of the naturals. -/
theorem sgt_ofNat (a b : Nat) (ha : a < 2 ^ 31) (hb : b < 2 ^ 31) :
    IntOp.cmpi .sgt (BitVec.ofNat 32 a) (BitVec.ofNat 32 b) = if b < a then 1#1 else 0#1 := by
  by_cases h : b < a
  · rw [if_pos h]
    exact IntOp.cmpi_sgt.mpr (by rw [toInt_ofNat_small a ha, toInt_ofNat_small b hb]; omega)
  · rw [if_neg h]
    refine eq_zero_of_ne_one fun h1 => h ?_
    have := IntOp.cmpi_sgt.mp h1
    rw [toInt_ofNat_small a ha, toInt_ofNat_small b hb] at this
    omega

/-- Signed "greater or equal" on two small naturals' words is the order of the naturals. -/
theorem sge_ofNat (a b : Nat) (ha : a < 2 ^ 31) (hb : b < 2 ^ 31) :
    IntOp.cmpi .sge (BitVec.ofNat 32 a) (BitVec.ofNat 32 b) = if b ≤ a then 1#1 else 0#1 := by
  by_cases h : b ≤ a
  · rw [if_pos h]
    exact IntOp.cmpi_sge.mpr (by rw [toInt_ofNat_small a ha, toInt_ofNat_small b hb]; omega)
  · rw [if_neg h]
    refine eq_zero_of_ne_one fun h1 => h ?_
    have := IntOp.cmpi_sge.mp h1
    rw [toInt_ofNat_small a ha, toInt_ofNat_small b hb] at this
    omega

/-- The kernel's row word: block offset `q · 512` plus the row inside the block. -/
theorem row_word (q r : Nat) :
    IntOp.addi (Scalar.muli (BitVec.ofNat 32 q) 512#32) (BitVec.ofNat 32 r) = BitVec.ofNat 32 (q * 512 + r) := by
  rw [BitVec.ofNat_add, BitVec.ofNat_mul]
  rfl

/-- The kernel's mask bit at `(r, c)` of block `q`: set exactly above the diagonal. -/
theorem kernel_mask_bit (q r c : Nat) (hq : q < 4) (hr : r < 512) (hc : c < 2048) :
    IntOp.cmpi .sgt (BitVec.ofNat 32 c) (IntOp.addi (Scalar.muli (BitVec.ofNat 32 q) 512#32) (BitVec.ofNat 32 r))
      = if q * 512 + r < c then 1#1 else 0#1 := by
  rw [row_word, sgt_ofNat c (q * 512 + r) (by omega) (by omega)]

/-- The reference's mask bit at `(R, c)`: `triu` with `k = 1`, set exactly above the diagonal. -/
theorem ref_mask_bit (R c : Nat) (hR : R < 2048) (hc : c < 2048) :
    Scalar.select (IntOp.cmpi .sge (IntOp.addi (BitVec.ofNat 32 R) 0#32) (BitVec.ofNat 32 c)) (0#1 : BitVec 1) 1#1
      = if R < c then 1#1 else 0#1 := by
  have e : IntOp.addi (BitVec.ofNat 32 R) 0#32 = BitVec.ofNat 32 R := by
    show BitVec.ofNat 32 R + 0#32 = _
    exact BitVec.add_zero _
  rw [e, sge_ofNat R c (by omega) (by omega)]
  by_cases h : c ≤ R
  · rw [if_pos h, select_one, if_neg (by omega)]
  · rw [if_neg h, select_zero, if_pos (by omega)]

section Kernel
open Cert.KernelIdeal Cert.KernelIdeal.Gen

/-- The masked, scaled scores of one tile, as the kernel computes them. -/
def tileScores (i : grid3.Coords) (v0 : Vec Ideal S1x1x512x64 .bf16) (v2 : Vec Ideal S1x1x2048x64 .bf16) : FVec Ideal S512x2048 .f32 :=
  select
    (cmpi .sgt (broadcastTo S512x2048 (iota .tc S1x2048 32 [1] iota_S1x2048_d1_w32) broadcasts_S1x2048_S512x2048)
      (broadcastTo S512x2048 (addi (broadcast S512x1 (Scalar.muli (BitVec.ofNat 32 (i 2).val) 512#32)) (iota .tc S512x1 32 [0] iota_S512x1_d0_w32)) broadcasts_S512x1_S512x2048))
    (broadcast S512x2048 (Named.named (F := Ideal) κ "neg_big" (φ := .f32) 0xFF333332#32))
    (mulf (matmul (φ₁ := .bf16) (φ₂ := .bf16) dot_S512x64_S2048x64_S512x2048_1_1_0_0_n_n none
        (shapeCast S512x64 v0 shapeCasts_S1x1x512x64_S512x64 : FVec Ideal S512x64 .bf16)
        (shapeCast S2048x64 v2 shapeCasts_S1x1x2048x64_S2048x64 : FVec Ideal S2048x64 .bf16) (constant S512x2048 .f32 0x00000000#32))
      (broadcast S512x2048 (Scalar.ofBits (F := Ideal) .f32 0x3E000000#32)))

/-- The row maxima as the kernel spells them, broadcast back over the columns. -/
def tileRowMax (M : FVec Ideal S512x2048 .f32) : FVec Ideal S512x2048 .f32 :=
  broadcastTo S512x2048 (shapeCast S512x1 (multiReduction (F := Ideal) .maximumf [1] S512 M 0xFF800000#32 reduces_S512x2048_S512 (.inl rfl) rfl : FVec Ideal S512 .f32) shapeCasts_S512_S512x1 : FVec Ideal S512x1 .f32) broadcasts_S512x1_S512x2048

/-- The row sums as the kernel spells them, broadcast back over the columns. -/
def tileRowSum (P : FVec Ideal S512x2048 .f32) : FVec Ideal S512x2048 .f32 :=
  broadcastTo S512x2048 (shapeCast S512x1 (multiReduction (F := Ideal) .add [1] S512 P 0x00000000#32 reduces_S512x2048_S512 (.inl rfl) rfl : FVec Ideal S512 .f32) shapeCasts_S512_S512x1 : FVec Ideal S512x1 .f32) broadcasts_S512x1_S512x2048

/-- The row softmax as the kernel spells it, of any score matrix. -/
def tileSoftmax (M : FVec Ideal S512x2048 .f32) : FVec Ideal S512x2048 .f32 :=
  divf (exp (subf M (tileRowMax M))) (tileRowSum (exp (subf M (tileRowMax M))))

set_option maxRecDepth 65536 in
theorem pay2_eq (i : grid3.Coords) (v0 : Vec Ideal S1x1x512x64 .bf16) (v2 : Vec Ideal S1x1x2048x64 .bf16) :
    k3_pay2 (F := Ideal) i v0 v2 = tileSoftmax (tileScores i v0 v2) := rfl

/-! ## Layout operations of the tile, read at an index -/

section Layout
variable {α : Type}

/-- A column `[512, 1]` broadcast over `[512, 2048]` reads, at `(r, c)`, the column at `r`. -/
theorem colBroadcast_apply (x : S512x1.Idx → α) (r : Fin 512) (c : Fin 2048) :
    broadcastTo S512x2048 x broadcasts_S512x1_S512x2048 (ix2 r c) = x (ix2 r (0 : Fin 1)) :=
  broadcastTo_apply x broadcasts_S512x1_S512x2048 (ix2 r c) (ix2 r (0 : Fin 1)) (fun a => match a with
    | ⟨0, _⟩ => by show r.val = if (512 : Nat) = 1 then 0 else r.val; rw [if_neg (by decide)]
    | ⟨1, _⟩ => by show 0 = if (1 : Nat) = 1 then 0 else c.val; rw [if_pos rfl])

/-- A row `[1, 2048]` broadcast over `[512, 2048]` reads, at `(r, c)`, the row at `c`. -/
theorem rowBroadcast_apply (x : S1x2048.Idx → α) (r : Fin 512) (c : Fin 2048) :
    broadcastTo S512x2048 x broadcasts_S1x2048_S512x2048 (ix2 r c) = x (ix2 (0 : Fin 1) c) :=
  broadcastTo_1b_ab_apply x broadcasts_S1x2048_S512x2048 r c

/-- A vector `[512]` viewed as a column `[512, 1]` reads, at `(r, 0)`, the vector at `r`. -/
theorem colCast_apply (x : S512.Idx → α) (r : Fin 512) :
    shapeCast S512x1 x shapeCasts_S512_S512x1 (ix2 r (0 : Fin 1)) = x (ix1 r) :=
  shapeCast_apply x shapeCasts_S512_S512x1 _ _ (by
    rw [Shape.rowMajor_val_two, Shape.rowMajor_val_one]
    show r.val = r.val * 1 + 0
    omega)

/-- The query block `[1, 1, 512, 64]` viewed `[512, 64]`. -/
theorem qCast_apply (x : S1x1x512x64.Idx → α) (r : Fin 512) (d : Fin 64) :
    shapeCast S512x64 x shapeCasts_S1x1x512x64_S512x64 (ix2 r d) = x (ix4 (0 : Fin 1) (0 : Fin 1) r d) :=
  shapeCast_apply x shapeCasts_S1x1x512x64_S512x64 _ _ (by
    rw [Shape.rowMajor_val_two, Shape.rowMajor_val_four]
    show ((0 * 1 + 0) * 512 + r.val) * 64 + d.val = r.val * 64 + d.val
    omega)

/-- A key or value block `[1, 1, 2048, 64]` viewed `[2048, 64]`. -/
theorem kvCast_apply (x : S1x1x2048x64.Idx → α) (c : Fin 2048) (d : Fin 64) :
    shapeCast S2048x64 x shapeCasts_S1x1x2048x64_S2048x64 (ix2 c d) = x (ix4 (0 : Fin 1) (0 : Fin 1) c d) :=
  shapeCast_apply x shapeCasts_S1x1x2048x64_S2048x64 _ _ (by
    rw [Shape.rowMajor_val_two, Shape.rowMajor_val_four]
    show ((0 * 1 + 0) * 2048 + c.val) * 64 + d.val = c.val * 64 + d.val
    omega)

/-- The weights `[512, 2048]` stored as a block `[1, 1, 512, 2048]`. -/
theorem wCast_apply (x : S512x2048.Idx → α) (r : Fin 512) (c : Fin 2048) :
    shapeCast S1x1x512x2048 x shapeCasts_S512x2048_S1x1x512x2048 (ix4 (0 : Fin 1) (0 : Fin 1) r c) = x (ix2 r c) :=
  shapeCast_apply x shapeCasts_S512x2048_S1x1x512x2048 _ _ (by
    rw [Shape.rowMajor_val_two, Shape.rowMajor_val_four]
    show r.val * 2048 + c.val = ((0 * 1 + 0) * 512 + r.val) * 2048 + c.val
    omega)

/-- The context `[512, 64]` stored as a block `[1, 1, 512, 64]`. -/
theorem oCast_apply (x : S512x64.Idx → α) (r : Fin 512) (d : Fin 64) :
    shapeCast S1x1x512x64 x shapeCasts_S512x64_S1x1x512x64 (ix4 (0 : Fin 1) (0 : Fin 1) r d) = x (ix2 r d) :=
  shapeCast_apply x shapeCasts_S512x64_S1x1x512x64 _ _ (by
    rw [Shape.rowMajor_val_two, Shape.rowMajor_val_four]
    show r.val * 64 + d.val = ((0 * 1 + 0) * 512 + r.val) * 64 + d.val
    omega)

end Layout

/-! ## The tile's reductions and products, read at an index -/

/-- The source index of row `r` at column `c`. -/
theorem lift_row (r : Fin 512) (c : Fin 2048) : reduces_S512x2048_S512.lift (ix1 r) c = ix2 r c :=
  funext fun a => Fin.ext (by match a with | ⟨0, _⟩ => rfl | ⟨1, _⟩ => rfl)

/-- A row's maximum is the fold of `max` over the row. -/
theorem rowMax_apply (M : FVec Ideal S512x2048 .f32) (r : Fin 512) :
    (multiReduction (F := Ideal) .maximumf [1] S512 M 0xFF800000#32 reduces_S512x2048_S512 (.inl rfl) rfl : FVec Ideal S512 .f32) (ix1 r)
      = (Finset.univ : Finset (Fin 2048)).fold max (Ideal.ofBits .f32 0xFF800000#32) (fun c => M (ix2 r c)) := by
  refine (Ideal.multiReduction_maximumf_single M 0xFF800000#32 reduces_S512x2048_S512 (.inl rfl) rfl (ix1 r)).trans ?_
  show (Finset.univ : Finset (Fin 2048)).fold max (Ideal.ofBits .f32 0xFF800000#32) (fun c => M (reduces_S512x2048_S512.lift (ix1 r) c)) = _
  exact congrArg (fun f => (Finset.univ : Finset (Fin 2048)).fold max (Ideal.ofBits .f32 0xFF800000#32) f)
    (funext fun c => congrArg M (lift_row r c))

/-- A row's sum is the sum over the row. -/
theorem rowSum_apply (P : FVec Ideal S512x2048 .f32) (r : Fin 512) :
    (multiReduction (F := Ideal) .add [1] S512 P 0x00000000#32 reduces_S512x2048_S512 (.inl rfl) rfl : FVec Ideal S512 .f32) (ix1 r)
      = ∑ c : Fin 2048, P (ix2 r c) := by
  refine (Ideal.multiReduction_add_single P 0x00000000#32 reduces_S512x2048_S512 (.inl rfl) rfl (ix1 r)).trans ?_
  show ∑ c : Fin 2048, P (reduces_S512x2048_S512.lift (ix1 r) c) = _
  exact Finset.sum_congr rfl fun c _ => congrArg P (lift_row r c)

theorem tileRowMax_apply (M : FVec Ideal S512x2048 .f32) (r : Fin 512) (c : Fin 2048) :
    tileRowMax M (ix2 r c) = (Finset.univ : Finset (Fin 2048)).fold max (Ideal.ofBits .f32 0xFF800000#32) (fun c' => M (ix2 r c')) := by
  unfold tileRowMax
  rw [colBroadcast_apply, colCast_apply]
  exact rowMax_apply M r

theorem tileRowSum_apply (P : FVec Ideal S512x2048 .f32) (r : Fin 512) (c : Fin 2048) :
    tileRowSum P (ix2 r c) = ∑ c' : Fin 2048, P (ix2 r c') := by
  unfold tileRowSum
  rw [colBroadcast_apply, colCast_apply]
  exact rowSum_apply P r

/-- The kernel's softmax of a score matrix at `(r, c)`. -/
theorem tileSoftmax_apply (M : FVec Ideal S512x2048 .f32) (r : Fin 512) (c : Fin 2048) :
    tileSoftmax M (ix2 r c)
      = Ideal.div (Ideal.exp (M (ix2 r c) - (Finset.univ : Finset (Fin 2048)).fold max (Ideal.ofBits .f32 0xFF800000#32) (fun c' => M (ix2 r c'))))
          (∑ c'' : Fin 2048, Ideal.exp (M (ix2 r c'') - (Finset.univ : Finset (Fin 2048)).fold max (Ideal.ofBits .f32 0xFF800000#32) (fun c' => M (ix2 r c')))) := by
  unfold tileSoftmax
  show Ideal.div (Ideal.exp (M (ix2 r c) - tileRowMax M (ix2 r c))) (tileRowSum (exp (subf M (tileRowMax M))) (ix2 r c)) = _
  rw [tileRowSum_apply, tileRowMax_apply]
  refine congrArg (Ideal.div _) (Finset.sum_congr rfl fun c'' _ => ?_)
  show Ideal.exp (M (ix2 r c'') - tileRowMax M (ix2 r c'')) = _
  rw [tileRowMax_apply]

/-! ## The two block products, read at an index -/

theorem qk_lhs0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs1 (j : S512x2048.Idx) (q : dot_S512x64_S2048x64_S512x2048_1_1_0_0_n_n.contr.Idx) :
    (dot_S512x64_S2048x64_S512x2048_1_1_0_0_n_n.lhsIdx j q 1).val = (q ⟨0, by decide⟩).val :=
  dot_S512x64_S2048x64_S512x2048_1_1_0_0_n_n.lhsIdx_val_of_single rfl j q
theorem qk_rhs0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs1 (j : S512x2048.Idx) (q : dot_S512x64_S2048x64_S512x2048_1_1_0_0_n_n.contr.Idx) :
    (dot_S512x64_S2048x64_S512x2048_1_1_0_0_n_n.rhsIdx j q 1).val = (q ⟨0, by decide⟩).val :=
  dot_S512x64_S2048x64_S512x2048_1_1_0_0_n_n.rhsIdx_val_of_single rfl j q

/-- The score product `Q Kᵀ` of the tile at `(r, c)`: the sum over the head dimension. -/
theorem qk_apply (A : FVec Ideal S512x64 .bf16) (B : FVec Ideal S2048x64 .bf16) (r : Fin 512) (c : Fin 2048) :
    matmul (F := Ideal) dot_S512x64_S2048x64_S512x2048_1_1_0_0_n_n none A B (constant S512x2048 .f32 0x00000000#32) (ix2 r c)
      = ∑ d : Fin 64, A (ix2 r d) * B (ix2 c d) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r c) ((contrEquiv1 dot_S512x64_S2048x64_S512x2048_1_1_0_0_n_n 64 rfl rfl).symm k) = ix2 r k := funext fun a => Fin.ext (by
    match a with
    | ⟨0, _⟩ => exact qk_lhs0 _ _
    | ⟨1, _⟩ => exact (qk_lhs1 _ _).trans hk)
  have er : dot_S512x64_S2048x64_S512x2048_1_1_0_0_n_n.rhsIdx (ix2 r c) ((contrEquiv1 dot_S512x64_S2048x64_S512x2048_1_1_0_0_n_n 64 rfl rfl).symm k) = ix2 c k := funext fun a => Fin.ext (by
    match a with
    | ⟨0, _⟩ => exact qk_rhs0 _ _
    | ⟨1, _⟩ => exact (qk_rhs1 _ _).trans hk)
  rw [el, er]

theorem pv_lhs0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs1 (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q
theorem pv_rhs0 (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q
theorem pv_rhs1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product `P V` of the tile at `(r, d)`: the sum over the key positions. -/
theorem pv_apply (P : FVec Ideal S512x2048 .bf16) (V : FVec Ideal S2048x64 .bf16) (r : Fin 512) (d : Fin 64) :
    matmul (F := Ideal) dot_S512x2048_S2048x64_S512x64_1_0_0_1_n_n none P V (constant S512x64 .f32 0x00000000#32) (ix2 r d)
      = ∑ c : Fin 2048, P (ix2 r c) * V (ix2 c d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact pv_lhs0 _ _
    | ⟨1, _⟩ => exact (pv_lhs1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (pv_rhs0 _ _).trans hk
    | ⟨1, _⟩ => exact pv_rhs1 _ _)
  rw [el, er]

/-! ## The kernel's masked scores and weights at an index -/

/-- The kernel's name for the mask value denotes `⊥`, by the certificate's table. -/
theorem neg_big : Named.named (F := Ideal) κ "neg_big" (φ := .f32) 0xFF333332#32 = (⊥ : EReal) :=
  IdealRules.named_const.ideal_named_scalar _ _ _ _ rfl

/-- A grid coordinate on the query-block axis is below 4. -/
theorem qblock_lt (i : grid3.Coords) : (i 2).val < 4 := (i 2).isLt

/-- The global query row of row `r` of the tile at grid point `i`. -/
def qrow (i : grid3.Coords) (r : Fin 512) : Fin 2048 :=
  ⟨(i 2).val * 512 + r.val, by have := qblock_lt i; have := r.isLt; omega⟩

theorem qrow_val (i : grid3.Coords) (r : Fin 512) : (qrow i r).val = (i 2).val * 512 + r.val := rfl

/-- The kernel's masked scaled score at `(r, c)`. -/
theorem tileScores_apply (i : grid3.Coords) (v0 : Vec Ideal S1x1x512x64 .bf16) (v2 : Vec Ideal S1x1x2048x64 .bf16)
    (r : Fin 512) (c : Fin 2048) :
    tileScores i v0 v2 (ix2 r c)
      = Scalar.select (if (qrow i r).val < c.val then 1#1 else 0#1) (⊥ : EReal)
          ((∑ d : Fin 64, v0 (ix4 (0 : Fin 1) (0 : Fin 1) r d) * v2 (ix4 (0 : Fin 1) (0 : Fin 1) c d)) * Ideal.ofBits .f32 0x3E000000#32) := by
  unfold tileScores
  rw [select_apply, cmpi]
  show Scalar.select (IntOp.cmpi .sgt
        (broadcastTo S512x2048 (iota .tc S1x2048 32 [1] iota_S1x2048_d1_w32) broadcasts_S1x2048_S512x2048 (ix2 r c))
        (broadcastTo S512x2048 (addi (broadcast S512x1 (Scalar.muli (BitVec.ofNat 32 (i 2).val) 512#32)) (iota .tc S512x1 32 [0] iota_S512x1_d0_w32)) broadcasts_S512x1_S512x2048 (ix2 r c)))
      (Named.named (F := Ideal) κ "neg_big" (φ := .f32) 0xFF333332#32)
      (matmul (F := Ideal) (φ₁ := .bf16) (φ₂ := .bf16) dot_S512x64_S2048x64_S512x2048_1_1_0_0_n_n none
          (shapeCast S512x64 v0 shapeCasts_S1x1x512x64_S512x64 : FVec Ideal S512x64 .bf16)
          (shapeCast S2048x64 v2 shapeCasts_S1x1x2048x64_S2048x64 : FVec Ideal S2048x64 .bf16) (constant S512x2048 .f32 0x00000000#32) (ix2 r c)
        * Ideal.ofBits .f32 0x3E000000#32) = _
  rw [rowBroadcast_apply, colBroadcast_apply, qk_apply, neg_big]
  show Scalar.select (IntOp.cmpi .sgt (iota .tc S1x2048 32 [1] iota_S1x2048_d1_w32 (ix2 (0 : Fin 1) c))
        (IntOp.addi (Scalar.muli (BitVec.ofNat 32 (i 2).val) 512#32) (iota .tc S512x1 32 [0] iota_S512x1_d0_w32 (ix2 r (0 : Fin 1))))) _ _ = _
  rw [iota_single_apply, iota_single_apply]
  show Scalar.select (IntOp.cmpi .sgt (BitVec.ofNat 32 c.val) (IntOp.addi (Scalar.muli (BitVec.ofNat 32 (i 2).val) 512#32) (BitVec.ofNat 32 r.val))) _ _ = _
  rw [kernel_mask_bit (i 2).val r.val c.val (qblock_lt i) r.isLt c.isLt]
  simp only [qCast_apply, kvCast_apply, qrow_val]
  rfl

end Kernel

/-! ## The reference's attention weights at an index -/

section Reference
open Cert.ReferenceIdeal Cert.ReferenceIdeal.Gen Cert.ReferenceIdeal.Read

/-- The reference's activations, projection matrices and biases. -/
abbrev RAct : Type := (⟨S2x2048x1024, .f32⟩ : BufTy).Contents (Elt Ideal)
abbrev RMat : Type := (⟨S1024x1024, .f32⟩ : BufTy).Contents (Elt Ideal)
abbrev RBias : Type := (⟨S1024, .f32⟩ : BufTy).Contents (Elt Ideal)

variable (x0 x1 : RAct) (x3 : RMat) (x4 : RBias) (x5 : RMat) (x6 : RBias)

/-- The reference's row maximum over the key positions: the fold of `max` over the row of masked scores. -/
theorem ref_rowMax (b : Fin 2) (h : Fin 16) (R : Fin 2048) :
    val_main_v26 (F := Ideal) x0 x1 x3 x4 x5 x6 (ix3 b h R)
      = (Finset.univ : Finset (Fin 2048)).fold max (Ideal.ofBits .f32 0xFF800000#32)
          (fun c => val_main_v25 (F := Ideal) x0 x1 x3 x4 x5 x6 (ix4 b h R c)) := by
  unfold val_main_v26
  generalize val_main_v25 (F := Ideal) x0 x1 x3 x4 x5 x6 = Y
  have hred : S2x16x2048x2048.Reduces [3] S2x16x2048 := by decide
  refine (Host.reduce_eq_fold_single (FloatOps.maximumf (F := Ideal) (φ := .f32)) Y (val_main_cst_1 (F := Ideal))
    reducesTo_S2x16x2048x2048_S2x16x2048_d3 hred h_S_ (ix3 b h R)).trans ?_
  show (Finset.univ : Finset (Fin 2048)).fold max (Ideal.ofBits .f32 0xFF800000#32) (fun c => Y (hred.lift (ix3 b h R) c)) = _
  exact congrArg (fun f => (Finset.univ : Finset (Fin 2048)).fold max (Ideal.ofBits .f32 0xFF800000#32) f)
    (funext fun c => congrArg Y (funext fun a => Fin.ext (by
      match a with
      | ⟨0, _⟩ => rfl
      | ⟨1, _⟩ => rfl
      | ⟨2, _⟩ => rfl
      | ⟨3, _⟩ => rfl)))

theorem idx35 (b : Fin 2) (h : Fin 16) (R c : Fin 2048) :
    idx_main_v34 (idx_main_v35 (ix4 b h R c)) = ix3 b h R :=
  funext fun a => Fin.ext (by match a with | ⟨0, _⟩ => rfl | ⟨1, _⟩ => rfl | ⟨2, _⟩ => rfl)
theorem idx30 (b : Fin 2) (h : Fin 16) (R c : Fin 2048) :
    idx_main_v29 (idx_main_v30 (ix4 b h R c)) = ix3 b h R :=
  funext fun a => Fin.ext (by match a with | ⟨0, _⟩ => rfl | ⟨1, _⟩ => rfl | ⟨2, _⟩ => rfl)
theorem idx33 (b : Fin 2) (h : Fin 16) (R c : Fin 2048) :
    idx_main_v33 (ix3 b h R) c = ix4 b h R c :=
  funext fun a => Fin.ext (by match a with | ⟨0, _⟩ => rfl | ⟨1, _⟩ => rfl | ⟨2, _⟩ => rfl | ⟨3, _⟩ => rfl)

/-- The reference's exponentials at `(b, h, R, c)`. -/
theorem ref_exp_apply (b : Fin 2) (h : Fin 16) (R c : Fin 2048) :
    val_main_v32 (F := Ideal) x0 x1 x3 x4 x5 x6 (ix4 b h R c)
      = Ideal.exp (val_main_v25 (F := Ideal) x0 x1 x3 x4 x5 x6 (ix4 b h R c)
          - max (Ideal.ofBits .f32 0xFF800000#32) ((Finset.univ : Finset (Fin 2048)).fold max (Ideal.ofBits .f32 0xFF800000#32)
              (fun c' => val_main_v25 (F := Ideal) x0 x1 x3 x4 x5 x6 (ix4 b h R c')))) := by
  rw [val_main_v32_apply, val_main_v31_apply, val_main_v30_apply, val_main_v29_apply, idx30, val_main_v28_apply,
    val_main_v27_apply, val_main_cst_2_apply, ref_rowMax]
  rfl

/-- The reference's attention weights at `(b, h, R, c)`. -/
theorem ref_weights_apply (b : Fin 2) (h : Fin 16) (R c : Fin 2048) :
    val_main_v36 (F := Ideal) x0 x1 x3 x4 x5 x6 (ix4 b h R c)
      = Ideal.div (val_main_v32 (F := Ideal) x0 x1 x3 x4 x5 x6 (ix4 b h R c))
          (Ideal.ofBits .f32 0x00000000#32 + ∑ c' : Fin 2048, val_main_v32 (F := Ideal) x0 x1 x3 x4 x5 x6 (ix4 b h R c')) := by
  rw [val_main_v36_apply, val_main_v35_apply, val_main_v34_apply, idx35, val_main_v33_apply]
  simp only [idx33]
  rfl

end Reference

section ReferenceScores
open Cert.ReferenceIdeal Cert.ReferenceIdeal.Gen Cert.ReferenceIdeal.Read

variable (x0 x1 : RAct) (x3 : RMat) (x4 : RBias) (x5 : RMat) (x6 : RBias)

/-- The reference's causal mask at `(b, h, R, c)`: set exactly above the diagonal. -/
theorem ref_mask_apply (b : Fin 2) (h : Fin 16) (R c : Fin 2048) :
    val_main_call1_v1 (F := Ideal) (ix4 b h R c) = if R.val < c.val then 1#1 else 0#1 := by
  rw [val_main_call1_v1_apply, val_main_v24_apply, val_main_v23_apply, val_main_call0_v4_apply, val_main_call0_v2_apply,
    val_main_call0_v0_apply, val_main_call0_v1_apply, val_main_call0_c_apply, val_main_call0_v3_apply,
    val_main_call0_v5_apply, val_main_call0_c_0_apply, val_main_v22_apply, val_main_c_apply]
  exact ref_mask_bit R.val c.val R.isLt c.isLt

theorem lidx19 (b : Fin 2) (h : Fin 16) (R c : Fin 2048) (k : Fin 64) :
    lidx_main_v19 (ix4 b h R c) k = ix4 b h R k :=
  funext fun a => Fin.ext (by match a with | ⟨0, _⟩ => rfl | ⟨1, _⟩ => rfl | ⟨2, _⟩ => rfl | ⟨3, _⟩ => rfl)
theorem ridx19 (b : Fin 2) (h : Fin 16) (R c : Fin 2048) (k : Fin 64) :
    ridx_main_v19 (ix4 b h R c) k = ix4 b h c k :=
  funext fun a => Fin.ext (by match a with | ⟨0, _⟩ => rfl | ⟨1, _⟩ => rfl | ⟨2, _⟩ => rfl | ⟨3, _⟩ => rfl)

/-- The reference's masked scaled score at `(b, h, R, c)`. -/
theorem ref_scores_apply (b : Fin 2) (h : Fin 16) (R c : Fin 2048) :
    val_main_v25 (F := Ideal) x0 x1 x3 x4 x5 x6 (ix4 b h R c)
      = Scalar.select (if R.val < c.val then 1#1 else 0#1) (Ideal.ofBits .f32 0xFF800000#32)
          (Ideal.div (∑ k : Fin 64, val_main_v6 (F := Ideal) x0 x3 x4 (ix4 b h R k) * val_main_v12 (F := Ideal) x1 x5 x6 (ix4 b h c k))
            (Ideal.sqrt (Ideal.ofBits .f32 0x42800000#32))) := by
  rw [val_main_v25_apply, ref_mask_apply, val_main_call1_v2_apply, val_main_call1_v0_apply, val_main_cst_0_apply,
    val_main_v21_apply, val_main_v19_apply, val_main_v20_apply, val_main_v0_apply, val_main_cst_apply]
  simp only [lidx19, ridx19]
  rfl

end ReferenceScores

/-! ## The tile against the reference -/

section Bridge
open Cert.KernelIdeal Cert.KernelIdeal.Gen Cert.AttnConsts

variable (i : grid3.Coords) (v0 : Vec Ideal S1x1x512x64 .bf16) (v2 v29 : Vec Ideal S1x1x2048x64 .bf16)
  (x0 x1 x2 : RAct) (x3 : RMat) (x4 : RBias) (x5 : RMat) (x6 : RBias) (x7 : RMat) (x8 : RBias) (b : Fin 2) (h : Fin 16)

/-- Where the query block is the reference's projected queries at rows `qrow i ·` of head `(b, h)` and the key
    block its projected keys, the kernel's masked scaled scores are the reference's. -/
theorem scores_eq
    (hq : ∀ (r : Fin 512) (d : Fin 64), v0 (ix4 (0 : Fin 1) (0 : Fin 1) r d)
      = Cert.ReferenceIdeal.Read.val_main_v6 (F := Ideal) x0 x3 x4 (ix4 b h (qrow i r) d))
    (hk : ∀ (c : Fin 2048) (d : Fin 64), v2 (ix4 (0 : Fin 1) (0 : Fin 1) c d)
      = Cert.ReferenceIdeal.Read.val_main_v12 (F := Ideal) x1 x5 x6 (ix4 b h c d))
    (r : Fin 512) (c : Fin 2048) :
    tileScores i v0 v2 (ix2 r c)
      = Cert.ReferenceIdeal.Read.val_main_v25 (F := Ideal) x0 x1 x3 x4 x5 x6 (ix4 b h (qrow i r) c) := by
  rw [tileScores_apply, ref_scores_apply, ofBits_neg_inf, ← scale_eq_div]
  simp only [hq, hk]

/-- The kernel's attention weights of the tile, before the store's reshape, are the reference's. -/
theorem weights_tile2
    (hq : ∀ (r : Fin 512) (d : Fin 64), v0 (ix4 (0 : Fin 1) (0 : Fin 1) r d)
      = Cert.ReferenceIdeal.Read.val_main_v6 (F := Ideal) x0 x3 x4 (ix4 b h (qrow i r) d))
    (hk : ∀ (c : Fin 2048) (d : Fin 64), v2 (ix4 (0 : Fin 1) (0 : Fin 1) c d)
      = Cert.ReferenceIdeal.Read.val_main_v12 (F := Ideal) x1 x5 x6 (ix4 b h c d))
    (r : Fin 512) (c : Fin 2048) :
    k3_pay2 (F := Ideal) i v0 v2 (ix2 r c)
      = Cert.ReferenceIdeal.Read.val_main_v36 (F := Ideal) x0 x1 x3 x4 x5 x6 (ix4 b h (qrow i r) c) := by
  have hs := scores_eq i v0 v2 x0 x1 x3 x4 x5 x6 b h hq hk r
  rw [pay2_eq, tileSoftmax_apply, ref_weights_apply]
  simp only [ref_exp_apply, hs, ofBits_neg_inf, max_bot_left, Ideal.ofBits_zero_f32, zero_add]

/-- ONE ATTENTION TILE'S WEIGHTS: the block the kernel stores at grid point `i`, read at `(0, 0, r, c)`, is the
    reference's softmax at `(b, h, qrow i r, c)`. -/
theorem weights_tile
    (hq : ∀ (r : Fin 512) (d : Fin 64), v0 (ix4 (0 : Fin 1) (0 : Fin 1) r d)
      = Cert.ReferenceIdeal.Read.val_main_v6 (F := Ideal) x0 x3 x4 (ix4 b h (qrow i r) d))
    (hk : ∀ (c : Fin 2048) (d : Fin 64), v2 (ix4 (0 : Fin 1) (0 : Fin 1) c d)
      = Cert.ReferenceIdeal.Read.val_main_v12 (F := Ideal) x1 x5 x6 (ix4 b h c d))
    (r : Fin 512) (c : Fin 2048) :
    k3_pay3 (F := Ideal) i v0 v2 (ix4 (0 : Fin 1) (0 : Fin 1) r c)
      = Cert.ReferenceIdeal.Read.val_main_v36 (F := Ideal) x0 x1 x3 x4 x5 x6 (ix4 b h (qrow i r) c) := by
  unfold k3_pay3
  rw [wCast_apply]
  exact weights_tile2 i v0 v2 x0 x1 x3 x4 x5 x6 b h hq hk r c

theorem lidx37 (R : Fin 2048) (d : Fin 64) (k : Fin 2048) :
    Cert.ReferenceIdeal.Read.lidx_main_v37 (ix4 b h R d) k = ix4 b h R k :=
  funext fun a => Fin.ext (by match a with | ⟨0, _⟩ => rfl | ⟨1, _⟩ => rfl | ⟨2, _⟩ => rfl | ⟨3, _⟩ => rfl)
theorem ridx37 (R : Fin 2048) (d : Fin 64) (k : Fin 2048) :
    Cert.ReferenceIdeal.Read.ridx_main_v37 (ix4 b h R d) k = ix4 b h k d :=
  funext fun a => Fin.ext (by match a with | ⟨0, _⟩ => rfl | ⟨1, _⟩ => rfl | ⟨2, _⟩ => rfl | ⟨3, _⟩ => rfl)

/-- ONE ATTENTION TILE'S CONTEXT: the block the kernel stores at grid point `i`, read at `(0, 0, r, d)`, is the
    reference's weights times its projected values at `(b, h, qrow i r, d)`. -/
theorem context_tile
    (hq : ∀ (r : Fin 512) (d : Fin 64), v0 (ix4 (0 : Fin 1) (0 : Fin 1) r d)
      = Cert.ReferenceIdeal.Read.val_main_v6 (F := Ideal) x0 x3 x4 (ix4 b h (qrow i r) d))
    (hk : ∀ (c : Fin 2048) (d : Fin 64), v2 (ix4 (0 : Fin 1) (0 : Fin 1) c d)
      = Cert.ReferenceIdeal.Read.val_main_v12 (F := Ideal) x1 x5 x6 (ix4 b h c d))
    (hv : ∀ (c : Fin 2048) (d : Fin 64), v29 (ix4 (0 : Fin 1) (0 : Fin 1) c d)
      = Cert.ReferenceIdeal.Read.val_main_v18 (F := Ideal) x2 x7 x8 (ix4 b h c d))
    (r : Fin 512) (d : Fin 64) :
    k3_pay1 (F := Ideal) (k3_pay4 (F := Ideal) i v0 v2 v29) (ix4 (0 : Fin 1) (0 : Fin 1) r d)
      = Cert.ReferenceIdeal.Read.val_main_v37 (F := Ideal) x0 x1 x2 x3 x4 x5 x6 x7 x8 (ix4 b h (qrow i r) d) := by
  unfold k3_pay1
  rw [oCast_apply, truncf_apply]
  unfold k3_pay4
  rw [pv_apply, Cert.ReferenceIdeal.Read.val_main_v37_apply]
  refine Finset.sum_congr rfl fun c _ => ?_
  rw [truncf_apply, kvCast_apply, lidx37, ridx37, weights_tile2 i v0 v2 x0 x1 x3 x4 x5 x6 b h hq hk r c, hv]

/-- The global query row, from its value. -/
theorem qrow_eq (R : Fin 2048) (r : Fin 512) (hR : R.val = (i 2).val * 512 + r.val) : qrow i r = R :=
  Fin.ext hR.symm

end Bridge

end Cert.AttnTile

end
-- ==== Proof.KernelIdealWhole.lean ====
/-
  The idealized kernel's two results as functions of its arguments.  Each linear launch leaves the reference's projection
  (flattened over batch and sequence); split into heads these are the reference's per-head queries, keys and values;
  the attention launch then leaves the reference's softmax weights and context, tile by tile; merged back and projected,
  the context gives the reference's output.  So the run ends with the two result arrays at the reference's own two
  stages of the argument arrays, and the arguments unchanged.
-/
import proofs.«147173_j49108656063270_2_alg».proof.Proof.KernelIdealRun
import proofs.«147173_j49108656063270_2_alg».proof.Proof.KernelIdealLinear
import proofs.«147173_j49108656063270_2_alg».proof.Proof.KernelIdealAttn
import proofs.«147173_j49108656063270_2_alg».proof.Proof.KernelIdealStages
import proofs.«147173_j49108656063270_2_alg».proof.Proof.LinearArray
import proofs.«147173_j49108656063270_2_alg».proof.Proof.AttnTile

set_option maxRecDepth 16384

noncomputable section

namespace Cert.KernelIdeal.Whole

open Cert.KernelIdeal Cert.KernelIdeal.Gen Cert.KernelIdeal.GenP
open Idealize.ShloMosaic Idealize.ShloMosaic.TcCoe Idealize.SL.Sem Idealize.ShloMosaic.ValueIdx
open Cert.ReferenceIdeal.Read (val_main_v4 val_main_v6 val_main_v10 val_main_v12 val_main_v16 val_main_v18 val_main_v36 val_main_v37 val_main_v43)

variable (m : (ℓ : Loc nD τ sig) → Buf (Elt Ideal) ℓ) (ρ : Dev nD → PrngReg)

/-! ## The three projections -/

theorem proj_q (c : Dev nD) : ((dat0 (V1 m ρ) c).arrAt 3 cfg0.N : S4096x1024.Idx → EReal)
    = shapeCast S4096x1024 (val_main_v4 (F := Ideal) (m ((c : Thread nD τ).loc main_arg0)) (m ((c : Thread nD τ).loc main_arg3)) (m ((c : Thread nD τ).loc main_arg4))) shapeCasts_S2x2048x1024_S4096x1024 := by
  rw [Linear.array0 (V1 m ρ) c, Stages.rows_q m ρ c, Stages.weight_q m ρ c, Stages.bias_q m ρ c]
  exact Cert.LinearArray.lin_proj_q _ _ _ _ _ _

theorem proj_k (c : Dev nD) : ((dat1 (V3 m ρ) c).arrAt 3 cfg1.N : S4096x1024.Idx → EReal)
    = shapeCast S4096x1024 (val_main_v10 (F := Ideal) (m ((c : Thread nD τ).loc main_arg1)) (m ((c : Thread nD τ).loc main_arg5)) (m ((c : Thread nD τ).loc main_arg6))) shapeCasts_S2x2048x1024_S4096x1024 := by
  rw [Linear.array1 (V3 m ρ) c, Stages.rows_k m ρ c, Stages.weight_k m ρ c, Stages.bias_k m ρ c]
  exact Cert.LinearArray.lin_proj_k _ _ _ _ _ _

theorem proj_v (c : Dev nD) : ((dat2 (V5 m ρ) c).arrAt 3 cfg2.N : S4096x1024.Idx → EReal)
    = shapeCast S4096x1024 (val_main_v16 (F := Ideal) (m ((c : Thread nD τ).loc main_arg2)) (m ((c : Thread nD τ).loc main_arg7)) (m ((c : Thread nD τ).loc main_arg8))) shapeCasts_S2x2048x1024_S4096x1024 := by
  rw [Linear.array2 (V5 m ρ) c, Stages.rows_v m ρ c, Stages.weight_v m ρ c, Stages.bias_v m ρ c]
  exact Cert.LinearArray.lin_proj_v _ _ _ _ _ _

/-! ## Split into heads: the attention launch's three operands -/

theorem heads_q (c : Dev nD) : (V7 m ρ c main_v20 : S2x16x2048x64.Idx → EReal)
    = val_main_v6 (F := Ideal) (m ((c : Thread nD τ).loc main_arg0)) (m ((c : Thread nD τ).loc main_arg3)) (m ((c : Thread nD τ).loc main_arg4)) := by
  rw [Stages.heads_q m ρ c, proj_q m ρ c]
  exact Cert.LinearArray.head_split_q _ _ _ _ _ _

theorem heads_k (c : Dev nD) : (V7 m ρ c main_v22 : S2x16x2048x64.Idx → EReal)
    = val_main_v12 (F := Ideal) (m ((c : Thread nD τ).loc main_arg1)) (m ((c : Thread nD τ).loc main_arg5)) (m ((c : Thread nD τ).loc main_arg6)) := by
  rw [Stages.heads_k m ρ c, proj_k m ρ c]
  exact Cert.LinearArray.head_split_k _ _ _ _ _ _

theorem heads_v (c : Dev nD) : (V7 m ρ c main_v24 : S2x16x2048x64.Idx → EReal)
    = val_main_v18 (F := Ideal) (m ((c : Thread nD τ).loc main_arg2)) (m ((c : Thread nD τ).loc main_arg7)) (m ((c : Thread nD τ).loc main_arg8)) := by
  rw [Stages.heads_v m ρ c, proj_v m ρ c]
  exact Cert.LinearArray.head_split_v _ _ _ _ _ _

/-! ## The attention launch: the softmax weights and the context -/

theorem weights (c : Dev nD) : ((dat3 (V7 m ρ) c).arrAt 3 cfg3.N : S2x16x2048x2048.Idx → EReal)
    = val_main_v36 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  Attn.array3_3 (V7 m ρ) c _ (fun b h i v0 v2 hq hk r k q hqv => by
    rw [heads_q m ρ c] at hq
    rw [heads_k m ρ c] at hk
    have key := Cert.AttnTile.weights_tile i v0 v2 _ _ _ _ _ _ b h (fun r d => hq r d _ (Cert.AttnTile.qrow_val i r)) hk r k
    rwa [Cert.AttnTile.qrow_eq i q r hqv] at key)

theorem context (c : Dev nD) : ((dat3 (V7 m ρ) c).arrAt 4 cfg3.N : S2x16x2048x64.Idx → EReal)
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Attn.array3_4 (V7 m ρ) c _ (fun b h i v0 v2 v29 hq hk hv r d q hqv => by
    rw [heads_q m ρ c] at hq
    rw [heads_k m ρ c] at hk
    rw [heads_v m ρ c] at hv
    have key := Cert.AttnTile.context_tile i v0 v2 v29 _ _ _ _ _ _ _ _ _ b h (fun r d => hq r d _ (Cert.AttnTile.qrow_val i r)) hk hv r d
    rwa [Cert.AttnTile.qrow_eq i q r hqv] at key)

/-! ## The two results -/

theorem result_out (c : Dev nD) : (W11 m ρ c (Proc.devRef .tc main_v31) : S2x2048x1024.Idx → EReal)
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Stages.result_out m ρ c, Linear.array4 (V9 m ρ) c, Stages.rows_o m ρ c, Stages.weight_o m ρ c, Stages.bias_o m ρ c]
  exact Cert.LinearArray.out_proj _ _ _ _ _ _ _ _ _ _ _ _ (context m ρ c) _ _ _ _ _

theorem result_weights (c : Dev nD) : (W11 m ρ c (Proc.devRef .tc main_v25_0) : S2x16x2048x2048.Idx → EReal)
    = val_main_v36 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (Stages.result_weights m ρ c).trans (weights m ρ c)

/-! ## The run, read -/

/-- Every weakly fair execution of the idealized kernel terminates without a fault, with the output at the reference's
    output stage of the arguments, the attention weights at the reference's weights stage, and the arguments unchanged. -/
theorem run : θ_run defs (onTc (τ := τ) (main (F := Ideal))) ⟨m, fun _ => 0, ρ⟩ (fun r => ∀ c : Dev nD,
      r.2.mem ((c.tc : Thread nD τ).loc main_v31) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v25_0) = val_main_v36 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Run.run_of m ρ (fun s h c =>
    ⟨(h c _ (mem_uc main_v31 (by decide))).trans (result_out m ρ c),
     (h c _ (mem_uc main_v25_0 (by decide))).trans (result_weights m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩)

end Cert.KernelIdeal.Whole

end
-- ==== Proof.lean ====
/-
  The certificate of a causal multi-head attention layer (batch 2, sequence 2048, model width 1024, sixteen heads of
  width 64) computed by five pipelined kernel launches — three linear layers for the query, key and value projections, one
  attention launch per batch entry, head and block of 512 query rows, and the output projection — against its plain
  reference.

  Over the extended reals the two programs compute the same function of the arguments.  A linear launch's block of 512 rows
  is the rows' product with the transposed weight plus the bias, which is the reference's contraction read at the same
  rows; the head split and merge are the same reshapes and transpositions on both sides.  In the attention launch a
  score is the query–key product times 1/8 where the reference divides by the square root of 64 — the same number for every
  extended real —; the masked entries (a key position after the query's) are filled with a finite value that the
  idealized kernel names −∞, the reference's own fill; the row maximum, the exponentials, their sum and the quotient are then
  the same operations of the same row, and the context is the same contraction with the values.  Neither side's
  algebra needs the inputs to be finite, so the precondition is never opened.

  Three frames (each program terminates without a fault and leaves its arguments unchanged), the named constant, and the
  equality of the results.
-/
import proofs.«147173_j49108656063270_2_alg».proof.Defs
import proofs.«147173_j49108656063270_2_alg».proof.Proof.Gen.Kernel
import proofs.«147173_j49108656063270_2_alg».proof.Proof.Gen.KernelIdeal
import proofs.«147173_j49108656063270_2_alg».proof.Proof.Gen.ReferenceIdeal
import proofs.«147173_j49108656063270_2_alg».proof.Proof.Gen.Pre_finite_inputs
import proofs.«147173_j49108656063270_2_alg».proof.Proof.KernelFrame
import proofs.«147173_j49108656063270_2_alg».proof.Proof.KernelIdealFrame
import proofs.«147173_j49108656063270_2_alg».proof.Proof.KernelIdealWhole
import proofs.«147173_j49108656063270_2_alg».proof.Proof.Gen.ReferenceIdeal.Run
import proofs.«147173_j49108656063270_2_alg».proof.Proof.Gen.ReferenceIdeal.Read
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.GenP.frame m ρ

/-- The idealized kernel runs and leaves its arguments unchanged. -/
theorem frame_ki : Cert.frame_KernelIdeal := fun m ρ _ => Cert.KernelIdeal.GenP.frame m ρ

/-- The idealized reference runs and leaves its arguments unchanged: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel's one named constant: the fill value of the masked scores denotes −∞ at the exact instance. -/
theorem preserves : Cert.preserves_Kernel_KernelIdeal :=
  IdealRules.named_const.statement Cert.KernelIdeal.κ "neg_big" .f32 0xFF333332#32 ⊥ rfl

/-- From memories agreeing on the arguments both idealized programs run, and end with the output and the attention weights
    at ONE function of the arguments each: the reference's own stages, which the kernel's launches were shown to leave. -/
theorem algebraic : Cert.algebraic_KernelIdeal_ReferenceIdeal := by
  intro m ρ m' ρ' _ hagree
  refine ⟨fun c => Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v43_eq, e0, e1, e2, e3, e4, e5, e6, e7, e8, e9, e10]
  · obtain ⟨e0, e1, e2, e3, e4, e5, e6, e7, e8, e9, e10⟩ := hagree c
    rw [Cert.ReferenceIdeal.Read.val_main_v36_eq, e0, e1, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
